-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4 : Shape := ⟨2, ![2097152, 4]⟩
abbrev S4x32 : Shape := ⟨2, ![4, 32]⟩
abbrev S1x32 : Shape := ⟨2, ![1, 32]⟩
abbrev S32x32 : Shape := ⟨2, ![32, 32]⟩
abbrev S32x2 : Shape := ⟨2, ![32, 2]⟩
abbrev S1x2 : Shape := ⟨2, ![1, 2]⟩
abbrev S_ : Shape := ⟨0, ![]⟩

class Facts : Prop where
  bcast_S_S2097152x4 : S_.BroadcastsInDim S2097152x4 (![] : Fin 0 → Fin S2097152x4.rank)
  reducesTo_S2097152x4_S_d0_1 : S2097152x4.ReducesTo [0, 1] S_
  h_S_ : 0 < S_.numel
  bcast_S_S4x32 : S_.BroadcastsInDim S4x32 (![] : Fin 0 → Fin S4x32.rank)
  reducesTo_S4x32_S_d0_1 : S4x32.ReducesTo [0, 1] S_
  bcast_S_S1x32 : S_.BroadcastsInDim S1x32 (![] : Fin 0 → Fin S1x32.rank)
  reducesTo_S1x32_S_d0_1 : S1x32.ReducesTo [0, 1] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S1x2 : S_.BroadcastsInDim S1x2 (![] : Fin 0 → Fin S1x2.rank)
  reducesTo_S1x2_S_d0_1 : S1x2.ReducesTo [0, 1] S_

variable [Facts]

def fn_part1 {F : FTy → Type} [FloatOps F] (main_arg4 : FVec F S1x32 .f32) (main_arg5 : FVec F S32x2 .f32) (main_arg6 : FVec F S1x2 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S1x32 .f32 := Host.absf main_arg4
  let main_cst_6 : FVec F S_ .f32 := constant S_ .f32 0x7F800000#32
  let main_v20 : FVec F S1x32 .f32 := broadcastInDim S1x32 ![] bcast_S_S1x32 main_cst_6
  let main_v21 : IVec S1x32 1 := cmpf .olt main_v19 main_v20
  let main_c_7 : IVec S_ 1 := constantI S_ 1 1#1
  let main_v22 : IVec S_ 1 := (fun x v => Host.reduce IntOp.andi x v reducesTo_S1x32_S_d0_1 h_S_) main_v21 main_c_7
  let main_v23 : IVec S_ 1 := andi main_v18 main_v22
  let main_v24 : FVec F S32x2 .f32 := Host.absf main_arg5
  let main_cst_8 : FVec F S_ .f32 := constant S_ .f32 0x7F800000#32
  let main_v25 : FVec F S32x2 .f32 := broadcastInDim S32x2 ![] bcast_S_S32x2 main_cst_8
  let main_v26 : IVec S32x2 1 := cmpf .olt main_v24 main_v25
  let main_c_9 : IVec S_ 1 := constantI S_ 1 1#1
  let main_v27 : IVec S_ 1 := (fun x v => Host.reduce IntOp.andi x v reducesTo_S32x2_S_d0_1 h_S_) main_v26 main_c_9
  let main_v28 : IVec S_ 1 := andi main_v23 main_v27
  let main_v29 : FVec F S1x2 .f32 := Host.absf main_arg6
  let main_cst_10 : FVec F S_ .f32 := constant S_ .f32 0x7F800000#32
  let main_v30 : FVec F S1x2 .f32 := broadcastInDim S1x2 ![] bcast_S_S1x2 main_cst_10
  let main_v31 : IVec S1x2 1 := cmpf .olt main_v29 main_v30
  let main_c_11 : IVec S_ 1 := constantI S_ 1 1#1
  let main_v32 : IVec S_ 1 := (fun x v => Host.reduce IntOp.andi x v reducesTo_S1x2_S_d0_1 h_S_) main_v31 main_c_11
  let main_v33 : IVec S_ 1 := andi main_v28 main_v32
  main_v33

def fn {F : FTy → Type} [FloatOps F] (main_arg0 : FVec F S2097152x4 .f32) (main_arg1 : FVec F S4x32 .f32) (main_arg2 : FVec F S1x32 .f32) (main_arg3 : FVec F S32x32 .f32) (main_arg4 : FVec F S1x32 .f32) (main_arg5 : FVec F S32x2 .f32) (main_arg6 : FVec F S1x2 .f32) : IVec S_ 1 :=
  let main_v0 : FVec F S2097152x4 .f32 := Host.absf main_arg0
  let main_cst : FVec F S_ .f32 := constant S_ .f32 0x7F800000#32
  let main_v1 : FVec F S2097152x4 .f32 := broadcastInDim S2097152x4 ![] bcast_S_S2097152x4 main_cst
  let main_v2 : IVec S2097152x4 1 := cmpf .olt main_v0 main_v1
  let main_c : IVec S_ 1 := constantI S_ 1 1#1
  let main_v3 : IVec S_ 1 := (fun x v => Host.reduce IntOp.andi x v reducesTo_S2097152x4_S_d0_1 h_S_) main_v2 main_c
  let main_v4 : FVec F S4x32 .f32 := Host.absf main_arg1
  let main_cst_0 : FVec F S_ .f32 := constant S_ .f32 0x7F800000#32
  let main_v5 : FVec F S4x32 .f32 := broadcastInDim S4x32 ![] bcast_S_S4x32 main_cst_0
  let main_v6 : IVec S4x32 1 := cmpf .olt main_v4 main_v5
  let main_c_1 : IVec S_ 1 := constantI S_ 1 1#1
  let main_v7 : IVec S_ 1 := (fun x v => Host.reduce IntOp.andi x v reducesTo_S4x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_v13 main_v16
-- ==== Kernel.lean ====
abbrev S2097152x4 : Shape := ⟨2, ![2097152, 4]⟩
abbrev S4x32 : Shape := ⟨2, ![4, 32]⟩
abbrev S1x32 : Shape := ⟨2, ![1, 32]⟩
abbrev S32x32 : Shape := ⟨2, ![32, 32]⟩
abbrev S32x2 : Shape := ⟨2, ![32, 2]⟩
abbrev S1x2 : Shape := ⟨2, ![1, 2]⟩
abbrev S4x2097152 : Shape := ⟨2, ![4, 2097152]⟩
abbrev S32x1 : Shape := ⟨2, ![32, 1]⟩
abbrev S32 : Shape := ⟨1, ![32]⟩
abbrev S1x1 : Shape := ⟨2, ![1, 1]⟩
abbrev S_ : Shape := ⟨0, ![]⟩
abbrev S1 : Shape := ⟨1, ![1]⟩
abbrev S2 : Shape := ⟨1, ![2]⟩
abbrev S32x4 : Shape := ⟨2, ![32, 4]⟩
abbrev S2x32 : Shape := ⟨2, ![2, 32]⟩
abbrev S2x1 : Shape := ⟨2, ![2, 1]⟩
abbrev S2x2097152 : Shape := ⟨2, ![2, 2097152]⟩
abbrev S4x8192 : Shape := ⟨2, ![4, 8192]⟩
abbrev S2x8192 : Shape := ⟨2, ![2, 8192]⟩
abbrev S32x8192 : Shape := ⟨2, ![32, 8192]⟩
abbrev S2097152x2 : Shape := ⟨2, ![2097152, 2]⟩

abbrev nBuf : Space → Nat
  | .hbm => 45
  | .vmem => 10
  | .smem => 0
  | _ => 0

abbrev bufTy : (tb : Table) → Fin (tcTables nBuf tb) → BufTy
  | .hbm, ⟨0, _⟩ => ⟨S2097152x4, .f32⟩
  | .hbm, ⟨1, _⟩ => ⟨S4x32, .f32⟩
  | .hbm, ⟨2, _⟩ => ⟨S1x32, .f32⟩
  | .hbm, ⟨3, _⟩ => ⟨S32x32, .f32⟩
  | .hbm, ⟨4, _⟩ => ⟨S1x32, .f32⟩
  | .hbm, ⟨5, _⟩ => ⟨S32x2, .f32⟩
  | .hbm, ⟨6, _⟩ => ⟨S1x2, .f32⟩
  | .hbm, ⟨7, _⟩ => ⟨S4x2097152, .f32⟩
  | .hbm, ⟨8, _⟩ => ⟨S32x1, .f32⟩
  | .hbm, ⟨9, _⟩ => ⟨S32, .f32⟩
  | .hbm, ⟨10, _⟩ => ⟨S32x1, .f32⟩
  | .hbm, ⟨11, _⟩ => ⟨S32, .f32⟩
  | .hbm, ⟨12, _⟩ => ⟨S32, .f32⟩
  | .hbm, ⟨13, _⟩ => ⟨S32x1, .f32⟩
  | .hbm, ⟨14, _⟩ => ⟨S32, .f32⟩
  | .hbm, ⟨15, _⟩ => ⟨S32x1, .f32⟩
  | .hbm, ⟨16, _⟩ => ⟨S32, .f32⟩
  | .hbm, ⟨17, _⟩ => ⟨S32, .f32⟩
  | .hbm, ⟨18, _⟩ => ⟨S32x1, .f32⟩
  | .hbm, ⟨19, _⟩ => ⟨S32x1, .f32⟩
  | .hbm, ⟨20, _⟩ => ⟨S32x2, .f32⟩
  | .hbm, ⟨21, _⟩ => ⟨S1x1, .f32⟩
  | .hbm, ⟨22, _⟩ => ⟨S_, .f32⟩
  | .hbm, ⟨23, _⟩ => ⟨S1x1, .f32⟩
  | .hbm, ⟨24, _⟩ => ⟨S_, .f32⟩
  | .hbm, ⟨25, _⟩ => ⟨S_, .f32⟩
  | .hbm, ⟨26, _⟩ => ⟨S1x1, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S1, .f32⟩
  | .hbm, ⟨33, _⟩ => ⟨S2, .f32⟩
  | .hbm, ⟨34, _⟩ => ⟨S32x4, .f32⟩
  | .hbm, ⟨35, _⟩ => ⟨S32x4, .bf16⟩
  | .hbm, ⟨36, _⟩ => ⟨S32x32, .f32⟩
  | .hbm, ⟨37, _⟩ => ⟨S32x32, .bf16⟩
  | .hbm, ⟨38, _⟩ => ⟨S2x32, .f32⟩
  | .hbm, ⟨39, _⟩ => ⟨S2x32, .bf16⟩
  | .hbm, ⟨40, _⟩ => ⟨S2x1, .f32⟩
  | .hbm, ⟨41, _⟩ => ⟨S32x1, .f32⟩
  | .hbm, ⟨42, _⟩ => ⟨S32x1, .f32⟩
  | .hbm, ⟨43, _⟩ => ⟨S2x2097152, .f32⟩
  | .hbm, ⟨44, _⟩ => ⟨S2097152x2, .f32⟩
  | .local _ .vmem, ⟨0, _⟩ => ⟨S4x8192, .f32⟩
  | .local _ .vmem, ⟨1, _⟩ => ⟨S4x8192, .f32⟩
  | .local _ .vmem, ⟨2, _⟩ => ⟨S32x4, .bf16⟩
  | .local _ .vmem, ⟨3, _⟩ => ⟨S32x1, .f32⟩
  | .local _ .vmem, ⟨4, _⟩ => ⟨S32x32, .bf16⟩
  | .local _ .vmem, ⟨5, _⟩ => ⟨S32x1, .f32⟩
  | .local _ .vmem, ⟨6, _⟩ => ⟨S2x32, .bf16⟩
  | .local _ .vmem, ⟨7, _⟩ => ⟨S2x1, .f32⟩
  | .local _ .vmem, ⟨8, _⟩ => ⟨S2x8192, .f32⟩
  | .local _ .vmem, ⟨9, _⟩ => ⟨S2x8192, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x4 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S2097152x4_S4x2097152_1_0 : S2097152x4.Transposes [1, 0] S4x2097152
  slices_S32x2_S32x1_0_0 : S32x2.Slices ![0, 0] S32x1
  shapeCasts_S32x1_S32 : S32x1.ShapeCasts S32
  slices_S32x2_S32x1_0_1 : S32x2.Slices ![0, 1] S32x1
  bcast_S32_S32x1_0 : S32.BroadcastsInDim S32x1 (![0] : Fin 1 → Fin S32x1.rank)
  concatenates_S32x1_S32x1_S32x2_d1 : Shape.Concatenates [S32x1, S32x1] S32x2 1
  slices_S1x2_S1x1_0_0 : S1x2.Slices ![0, 0] S1x1
  shapeCasts_S1x1_S_ : S1x1.ShapeCasts S_
  slices_S1x2_S1x1_0_1 : S1x2.Slices ![0, 1] S1x1
  bcast_S_S1 : S_.BroadcastsInDim S1 (![] : Fin 0 → Fin S1.rank)
  concatenates_S1_S1_S2_d0 : Shape.Concatenates [S1, S1] S2 0
  transposes_S4x32_S32x4_1_0 : S4x32.Transposes [1, 0] S32x4
  bitsLt_bf16_f32 : FTy.bits .bf16 < FTy.bits .f32
  transposes_S32x32_S32x32_1_0 : S32x32.Transposes [1, 0] S32x32
  transposes_S32x2_S2x32_1_0 : S32x2.Transposes [1, 0] S2x32
  shapeCasts_S2_S2x1 : S2.ShapeCasts S2x1
  shapeCasts_S1x32_S32x1 : S1x32.ShapeCasts S32x1
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  inb_S32x4_S32x4_0_0 : ∀ a, (![0, 0] : Fin 2 → Nat) a + S32x4.size a ≤ S32x4.size a
  h_S32x4 : 0 < S32x4.numel
  shapeCasts_S32x4_S32x4 : S32x4.ShapeCasts S32x4
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x8192 : S32x1.Broadcasts S32x8192
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S2x32_S2x32_0_0 : ∀ a, (![0, 0] : Fin 2 → Nat) a + S2x32.size a ≤ S2x32.size a
  h_S2x32 : 0 < S2x32.numel
  shapeCasts_S2x32_S2x32 : S2x32.ShapeCasts S2x32
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x8192 : S2x1.Broadcasts S2x8192
  inb_S2x8192_S2x8192_0_0 : ∀ a, (![0, 0] : Fin 2 → Nat) a + S2x8192.size a ≤ S2x8192.size a
  h_S2x8192 : 0 < S2x8192.numel
  transposes_S2x2097152_S2097152x2_1_0 : S2x2097152.Transposes [1, 0] S2097152x2
  dot_S32x4_S4x8192_S32x8192_1_0_0_1_n_n_wf : DotDims.WF S32x4 S4x8192 S32x8192 [1] [0] [0] [1] [] []
  dot_S32x32_S32x8192_S32x8192_1_0_0_1_n_n_wf : DotDims.WF S32x32 S32x8192 S32x8192 [1] [0] [0] [1] [] []
  dot_S2x32_S32x8192_S2x8192_1_0_0_1_n_n_wf : DotDims.WF S2x32 S32x8192 S2x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8192.size a ≤ S4x2097152.size a
  hwx0_0 : ∀ i : grid0.Coords, EltTy.bits .f32 = 32 ∨ (Rect.block (s := S4x2097152) S4x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x4.size a ≤ S32x4.size a
  hwx0_1 : ∀ i : grid0.Coords, EltTy.bits .bf16 = 32 ∨ (Rect.block (s := S32x4) S32x4.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .bf16 = 32 ∨ (Rect.block (s := S32x32) S32x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x32.size a ≤ S2x32.size a
  hwx0_5 : ∀ i : grid0.Coords, EltTy.bits .bf16 = 32 ∨ (Rect.block (s := S2x32) S2x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x1.size a ≤ S2x1.size a
  hwx0_6 : ∀ i : grid0.Coords, EltTy.bits .f32 = 32 ∨ (Rect.block (s := S2x1) S2x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x8192.size a ≤ S2x2097152.size a
  hwx0_7 : ∀ i : grid0.Coords, EltTy.bits .f32 = 32 ∨ (Rect.block (s := S2x2097152) S2x8192.size (cc0_transform_7 i) (hinb0_7 i)).WholeWords (EltTy.packing .f32)

variable [Facts₀]

def dot_S32x4_S4x8192_S32x8192_1_0_0_1_n_n : DotDims S32x4 S4x8192 S32x8192 where
  lhsContracting := [1]
  rhsContracting := [0]
  lhsNonContracting := [0]
  rhsNonContracting := [1]
  lhsBatch := []
  rhsBatch := []
  wf := dot_S32x4_S4x8192_S32x8192_1_0_0_1_n_n_wf
def dot_S32x32_S32x8192_S32x8192_1_0_0_1_n_n : DotDims S32x32 S32x8192 S32x8192 where
  lhsContracting := [1]
  rhsContracting := [0]
  lhsNonContracting := [0]
  rhsNonContracting := [1]
  lhsBatch := []
  rhsBatch := []
  wf := dot_S32x32_S32x8192_S32x8192_1_0_0_1_n_n_wf
def dot_S2x32_S32x8192_S2x8192_1_0_0_1_n_n : DotDims S2x32 S32x8192 S2x8192 where
  lhsContracting := [1]
  rhsContracting := [0]
  lhsNonContracting := [0]
  rhsNonContracting := [1]
  lhsBatch := []
  rhsBatch := []
  wf := dot_S2x32_S32x8192_S2x8192_1_0_0_1_n_n_wf

abbrev win0_0 : Pipeline.Window sig grid0 :=
  Pipeline.Window.ofSpec (Memref.whole main_v0) S4x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S32x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S2x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S2x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S2x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152x4 : Shape := ⟨2, ![2097152, 4]⟩
abbrev S4x32 : Shape := ⟨2, ![4, 32]⟩
abbrev S1x32 : Shape := ⟨2, ![1, 32]⟩
abbrev S32x32 : Shape := ⟨2, ![32, 32]⟩
abbrev S32x2 : Shape := ⟨2, ![32, 2]⟩
abbrev S1x2 : Shape := ⟨2, ![1, 2]⟩
abbrev S4x2097152 : Shape := ⟨2, ![4, 2097152]⟩
abbrev S32x4 : Shape := ⟨2, ![32, 4]⟩
abbrev S2x32 : Shape := ⟨2, ![2, 32]⟩
abbrev S32x1 : Shape := ⟨2, ![32, 1]⟩
abbrev S2x1 : Shape := ⟨2, ![2, 1]⟩
abbrev S2x2097152 : Shape := ⟨2, ![2, 2097152]⟩
abbrev S4x4096 : Shape := ⟨2, ![4, 4096]⟩
abbrev S2x4096 : Shape := ⟨2, ![2, 4096]⟩
abbrev S32x4096 : Shape := ⟨2, ![32, 4096]⟩
abbrev S1x4096 : Shape := ⟨2, ![1, 4096]⟩
abbrev S2097152x2 : Shape := ⟨2, ![2097152, 2]⟩

abbrev nBuf : Space → Nat
  | .hbm => 16
  | .vmem => 10
  | .smem => 0
  | _ => 0

abbrev bufTy : (tb : Table) → Fin (tcTables nBuf tb) → BufTy
  | .hbm, ⟨0, _⟩ => ⟨S2097152x4, .f32⟩
  | .hbm, ⟨1, _⟩ => ⟨S4x32, .f32⟩
  | .hbm, ⟨2, _⟩ => ⟨S1x32, .f32⟩
  | .hbm, ⟨3, _⟩ => ⟨S32x32, .f32⟩
  | .hbm, ⟨4, _⟩ => ⟨S1x32, .f32⟩
  | .hbm, ⟨5, _⟩ => ⟨S32x2, .f32⟩
  | .hbm, ⟨6, _⟩ => ⟨S1x2, .f32⟩
  | .hbm, ⟨7, _⟩ => ⟨S4x2097152, .f32⟩
  | .hbm, ⟨8, _⟩ => ⟨S32x4, .f32⟩
  | .hbm, ⟨9, _⟩ => ⟨S32x32, .f32⟩
  | .hbm, ⟨10, _⟩ => ⟨S2x32, .f32⟩
  | .hbm, ⟨11, _⟩ => ⟨S32x1, .f32⟩
  | .hbm, ⟨12, _⟩ => ⟨S32x1, .f32⟩
  | .hbm, ⟨13, _⟩ => ⟨S2x1, .f32⟩
  | .hbm, ⟨14, _⟩ => ⟨S2x2097152, .f32⟩
  | .hbm, ⟨15, _⟩ => ⟨S2097152x2, .f32⟩
  | .local _ .vmem, ⟨0, _⟩ => ⟨S4x4096, .f32⟩
  | .local _ .vmem, ⟨1, _⟩ => ⟨S4x4096, .f32⟩
  | .local _ .vmem, ⟨2, _⟩ => ⟨S32x4, .f32⟩
  | .local _ .vmem, ⟨3, _⟩ => ⟨S32x1, .f32⟩
  | .local _ .vmem, ⟨4, _⟩ => ⟨S32x32, .f32⟩
  | .local _ .vmem, ⟨5, _⟩ => ⟨S32x1, .f32⟩
  | .local _ .vmem, ⟨6, _⟩ => ⟨S2x32, .f32⟩
  | .local _ .vmem, ⟨7, _⟩ => ⟨S2x1, .f32⟩
  | .local _ .vmem, ⟨8, _⟩ => ⟨S2x4096, .f32⟩
  | .local _ .vmem, ⟨9, _⟩ => ⟨S2x4096, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S2097152x4_S4x2097152_1_0 : S2097152x4.Transposes [1, 0] S4x2097152
  transposes_S4x32_S32x4_1_0 : S4x32.Transposes [1, 0] S32x4
  transposes_S32x32_S32x32_1_0 : S32x32.Transposes [1, 0] S32x32
  transposes_S32x2_S2x32_1_0 : S32x2.Transposes [1, 0] S2x32
  shapeCasts_S1x32_S32x1 : S1x32.ShapeCasts S32x1
  shapeCasts_S1x2_S2x1 : S1x2.ShapeCasts S2x1
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  inb_S32x4_S32x4_0_0 : ∀ a, (![0, 0] : Fin 2 → Nat) a + S32x4.size a ≤ S32x4.size a
  h_S32x4 : 0 < S32x4.numel
  shapeCasts_S32x4_S32x4 : S32x4.ShapeCasts S32x4
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x4096 : S32x1.Broadcasts S32x4096
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S2x32_S2x32_0_0 : ∀ a, (![0, 0] : Fin 2 → Nat) a + S2x32.size a ≤ S2x32.size a
  h_S2x32 : 0 < S2x32.numel
  shapeCasts_S2x32_S2x32 : S2x32.ShapeCasts S2x32
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x4096 : S2x1.Broadcasts S2x4096
  slices_S2x4096_o0_0_S1x4096 : S2x4096.Slices ![0, 0] S1x4096
  slices_S2x4096_o1_0_S1x4096 : S2x4096.Slices ![1, 0] S1x4096
  concatenates_S1x4096_S1x4096_S2x4096_d0 : Shape.Concatenates [S1x4096, S1x4096] S2x4096 0
  inb_S2x4096_S2x4096_0_0 : ∀ a, (![0, 0] : Fin 2 → Nat) a + S2x4096.size a ≤ S2x4096.size a
  h_S2x4096 : 0 < S2x4096.numel
  transposes_S2x2097152_S2097152x2_1_0 : S2x2097152.Transposes [1, 0] S2097152x2
  dot_S32x4_S4x4096_S32x4096_1_0_0_1_n_n_wf : DotDims.WF S32x4 S4x4096 S32x4096 [1] [0] [0] [1] [] []
  dot_S32x32_S32x4096_S32x4096_1_0_0_1_n_n_wf : DotDims.WF S32x32 S32x4096 S32x4096 [1] [0] [0] [1] [] []
  dot_S2x32_S32x4096_S2x4096_1_0_0_1_n_n_wf : DotDims.WF S2x32 S32x4096 S2x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4096.size a ≤ S4x2097152.size a
  hwx0_0 : ∀ i : grid0.Coords, EltTy.bits .f32 = 32 ∨ (Rect.block (s := S4x2097152) S4x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x4.size a ≤ S32x4.size a
  hwx0_1 : ∀ i : grid0.Coords, EltTy.bits .f32 = 32 ∨ (Rect.block (s := S32x4) S32x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x32.size a ≤ S2x32.size a
  hwx0_5 : ∀ i : grid0.Coords, EltTy.bits .f32 = 32 ∨ (Rect.block (s := S2x32) S2x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x1.size a ≤ S2x1.size a
  hwx0_6 : ∀ i : grid0.Coords, EltTy.bits .f32 = 32 ∨ (Rect.block (s := S2x1) S2x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x4096.size a ≤ S2x2097152.size a
  hwx0_7 : ∀ i : grid0.Coords, EltTy.bits .f32 = 32 ∨ (Rect.block (s := S2x2097152) S2x4096.size (cc0_transform_7 i) (hinb0_7 i)).WholeWords (EltTy.packing .f32)

variable [Facts₀]

def dot_S32x4_S4x4096_S32x4096_1_0_0_1_n_n : DotDims S32x4 S4x4096 S32x4096 where
  lhsContracting := [1]
  rhsContracting := [0]
  lhsNonContracting := [0]
  rhsNonContracting := [1]
  lhsBatch := []
  rhsBatch := []
  wf := dot_S32x4_S4x4096_S32x4096_1_0_0_1_n_n_wf
def dot_S32x32_S32x4096_S32x4096_1_0_0_1_n_n : DotDims S32x32 S32x4096 S32x4096 where
  lhsContracting := [1]
  rhsContracting := [0]
  lhsNonContracting := [0]
  rhsNonContracting := [1]
  lhsBatch := []
  rhsBatch := []
  wf := dot_S32x32_S32x4096_S32x4096_1_0_0_1_n_n_wf
def dot_S2x32_S32x4096_S2x4096_1_0_0_1_n_n : DotDims S2x32 S32x4096 S2x4096 where
  lhsContracting := [1]
  rhsContracting := [0]
  lhsNonContracting := [0]
  rhsNonContracting := [1]
  lhsBatch := []
  rhsBatch := []
  wf := dot_S2x32_S32x4096_S2x4096_1_0_0_1_n_n_wf

abbrev win0_0 : Pipeline.Window sig grid0 :=
  Pipeline.Window.ofSpec (Memref.whole main_v0) S4x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S2x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S2x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.MlpSpec.lean ====
/-
  The network both programs compute, in the layout both kernels work in: features down the rows, the batch along
  the columns.  For N batch columns, an input xt : [4, N], weights w1t : [32, 4], w2t : [32, 32], w3t : [2, 32] (each
  already transposed, output feature first) and bias columns b1t, b2t : [32, 1], b3t : [2, 1]:

    hid1[j, n]  = max (sum_f w1t[j, f] * xt[f, n] + b1t[j, 0]) 0
    hid2[j, n]  = max (sum_k w2t[j, k] * hid1[k, n] + b2t[j, 0]) 0
    logit[c, n] = sum_k w3t[c, k] * hid2[k, n] + b3t[c, 0]

  One program ends with the logistic function of each of its two logits (outSig); the other with the logistic function of
  the difference of its two logits in row 0 and one minus that in row 1 (outPair).  Every function here reads the batch
  column n of xt only, so a block of columns of the result is the same function of that block of columns of xt
  (the `_cols` lemmas).
-/
import Idealize.ShloMosaic.PureOps.Ideal.Laws
import Idealize.ShloMosaic.Lib.ValueIdx

noncomputable section

namespace Cert.Mlp

open Idealize.ShloMosaic Idealize.ShloMosaic.ValueIdx

/-- A rank-2 array of extended reals. -/
abbrev Arr (a b : Nat) : Type := (⟨2, ![a, b]⟩ : Shape).Idx → EReal

variable {N : Nat}

/-- The first hidden layer, feature j of batch column n. -/
def hid1 (xt : Arr 4 N) (w1t : Arr 32 4) (b1t : Arr 32 1) (j : Fin 32) (n : Fin N) : EReal :=
  max (∑ f : Fin 4, w1t (ix2 j f) * xt (ix2 f n) + b1t (ix2 j (0 : Fin 1))) 0

/-- The second hidden layer, feature j of batch column n. -/
def hid2 (xt : Arr 4 N) (w1t : Arr 32 4) (b1t : Arr 32 1) (w2t : Arr 32 32) (b2t : Arr 32 1) (j : Fin 32) (n : Fin N) : EReal :=
  max (∑ k : Fin 32, w2t (ix2 j k) * hid1 xt w1t b1t k n + b2t (ix2 j (0 : Fin 1))) 0

/-- The output layer before its nonlinearity, row c of batch column n. -/
def logit (xt : Arr 4 N) (w1t : Arr 32 4) (b1t : Arr 32 1) (w2t : Arr 32 32) (b2t : Arr 32 1) (w3t : Arr 2 32) (b3t : Arr 2 1)
    (c : Fin 2) (n : Fin N) : EReal :=
  ∑ k : Fin 32, w3t (ix2 c k) * hid2 xt w1t b1t w2t b2t k n + b3t (ix2 c (0 : Fin 1))

/-- The logistic function as both programs spell it: 1 / (1 + exp (0 - z)). -/
def sigm (z : EReal) : EReal := Ideal.div 1 (1 + Ideal.exp (0 - z))

/-- The logistic function of each logit. -/
def outSig (xt : Arr 4 N) (w1t : Arr 32 4) (b1t : Arr 32 1) (w2t : Arr 32 32) (b2t : Arr 32 1) (w3t : Arr 2 32) (b3t : Arr 2 1) : Arr 2 N :=
  fun i => sigm (logit xt w1t b1t w2t b2t w3t b3t (i 0) (i 1))

/-- Row 0: the logistic function of the difference of the two logits; row 1: one minus it. -/
def outPair (xt : Arr 4 N) (w1t : Arr 32 4) (b1t : Arr 32 1) (w2t : Arr 32 32) (b2t : Arr 32 1) (w3t : Arr 2 32) (b3t : Arr 2 1) : Arr 2 N :=
  fun i => if (i 0).val = 0
    then sigm (logit xt w1t b1t w2t b2t w3t b3t 0 (i 1) - logit xt w1t b1t w2t b2t w3t b3t 1 (i 1))
    else 1 - sigm (logit xt w1t b1t w2t b2t w3t b3t 0 (i 1) - logit xt w1t b1t w2t b2t w3t b3t 1 (i 1))

/-! ## A block of batch columns -/

variable {M : Nat}

/-- If column q of xb is column n of xt, the first layer at column q of xb is the first layer at column n of xt. -/
theorem hid1_col (xt : Arr 4 N) (xb : Arr 4 M) (q : Fin M) (n : Fin N) (hx : ∀ f, xb (ix2 f q) = xt (ix2 f n))
    (w1t : Arr 32 4) (b1t : Arr 32 1) (j : Fin 32) :
    hid1 xb w1t b1t j q = hid1 xt w1t b1t j n := by
  unfold hid1
  simp only [hx]

theorem hid2_col (xt : Arr 4 N) (xb : Arr 4 M) (q : Fin M) (n : Fin N) (hx : ∀ f, xb (ix2 f q) = xt (ix2 f n))
    (w1t : Arr 32 4) (b1t : Arr 32 1) (w2t : Arr 32 32) (b2t : Arr 32 1) (j : Fin 32) :
    hid2 xb w1t b1t w2t b2t j q = hid2 xt w1t b1t w2t b2t j n := by
  unfold hid2
  simp only [hid1_col xt xb q n hx]

theorem logit_col (xt : Arr 4 N) (xb : Arr 4 M) (q : Fin M) (n : Fin N) (hx : ∀ f, xb (ix2 f q) = xt (ix2 f n))
    (w1t : Arr 32 4) (b1t : Arr 32 1) (w2t : Arr 32 32) (b2t : Arr 32 1) (w3t : Arr 2 32) (b3t : Arr 2 1) (c : Fin 2) :
    logit xb w1t b1t w2t b2t w3t b3t c q = logit xt w1t b1t w2t b2t w3t b3t c n := by
  unfold logit
  simp only [hid2_col xt xb q n hx]

/-- A block of columns of outSig is outSig of that block of columns of xt: if xb holds the columns of xt from `base` on,
    the block's entry y is the whole array's entry i at the same row and at column base + (y's column). -/
theorem outSig_block (xt : Arr 4 N) (xb : Arr 4 M) (base : Nat)
    (hx : ∀ (f : Fin 4) (q : Fin M) (n : Fin N), n.val = base + q.val → xb (ix2 f q) = xt (ix2 f n))
    (w1t : Arr 32 4) (b1t : Arr 32 1) (w2t : Arr 32 32) (b2t : Arr 32 1) (w3t : Arr 2 32) (b3t : Arr 2 1)
    (y : (⟨2, ![2, M]⟩ : Shape).Idx) (i : (⟨2, ![2, N]⟩ : Shape).Idx)
    (h0 : (i 0).val = (y 0).val) (h1 : (i 1).val = base + (y 1).val) :
    outSig xb w1t b1t w2t b2t w3t b3t y = outSig xt w1t b1t w2t b2t w3t b3t i := by
  obtain ⟨c, q, rfl⟩ : ∃ (c : Fin 2) (q : Fin M), y = ix2 c q := ⟨y 0, y 1, eq_ix2 y⟩
  obtain ⟨c', n, rfl⟩ : ∃ (c' : Fin 2) (n : Fin N), i = ix2 c' n := ⟨i 0, i 1, eq_ix2 i⟩
  have e0 : c' = c := Fin.ext h0
  have e1 : n.val = base + q.val := h1
  subst e0
  show sigm (logit xb w1t b1t w2t b2t w3t b3t c' q) = sigm (logit xt w1t b1t w2t b2t w3t b3t c' n)
  rw [logit_col xt xb q n (fun f => hx f q n e1)]

/-- The same for outPair. -/
theorem outPair_block (xt : Arr 4 N) (xb : Arr 4 M) (base : Nat)
    (hx : ∀ (f : Fin 4) (q : Fin M) (n : Fin N), n.val = base + q.val → xb (ix2 f q) = xt (ix2 f n))
    (w1t : Arr 32 4) (b1t : Arr 32 1) (w2t : Arr 32 32) (b2t : Arr 32 1) (w3t : Arr 2 32) (b3t : Arr 2 1)
    (y : (⟨2, ![2, M]⟩ : Shape).Idx) (i : (⟨2, ![2, N]⟩ : Shape).Idx)
    (h0 : (i 0).val = (y 0).val) (h1 : (i 1).val = base + (y 1).val) :
    outPair xb w1t b1t w2t b2t w3t b3t y = outPair xt w1t b1t w2t b2t w3t b3t i := by
  obtain ⟨c, q, rfl⟩ : ∃ (c : Fin 2) (q : Fin M), y = ix2 c q := ⟨y 0, y 1, eq_ix2 y⟩
  obtain ⟨c', n, rfl⟩ : ∃ (c' : Fin 2) (n : Fin N), i = ix2 c' n := ⟨i 0, i 1, eq_ix2 i⟩
  have e0 : c' = c := Fin.ext h0
  have e1 : n.val = base + q.val := h1
  subst e0
  show (if c'.val = 0
      then sigm (logit xb w1t b1t w2t b2t w3t b3t 0 q - logit xb w1t b1t w2t b2t w3t b3t 1 q)
      else 1 - sigm (logit xb w1t b1t w2t b2t w3t b3t 0 q - logit xb w1t b1t w2t b2t w3t b3t 1 q))
    = (if c'.val = 0
      then sigm (logit xt w1t b1t w2t b2t w3t b3t 0 n - logit xt w1t b1t w2t b2t w3t b3t 1 n)
      else 1 - sigm (logit xt w1t b1t w2t b2t w3t b3t 0 n - logit xt w1t b1t w2t b2t w3t b3t 1 n))
  rw [logit_col xt xb q n (fun f => hx f q n e1), logit_col xt xb q n (fun f => hx f q n e1)]

end Cert.Mlp

end
-- ==== Proof.MlpAlgebra.lean ====
/-
  The one algebraic law between the two programs.  For two classes a softmax is a logistic function of the difference of
  the logits: with l0, l1 the two logits and d = l0 - l1,

    softmax = (1 / (1 + exp (-d)),  1 - 1 / (1 + exp (-d)))   and   1 - 1 / (1 + exp (-d)) = 1 / (1 + exp d).

  One program forms d through the output layer itself, by taking the weight rows (w3[0] - w3[1], w3[1] - w3[0]) and the
  biases (b3[0] - b3[1], b3[1] - b3[0]); the other subtracts the two logits.  The two agree because a difference of
  weights moves across the contraction, sum_k (a_k - b_k) h_k = sum_k a_k h_k - sum_k b_k h_k.  That step is
  distributivity, which fails at the infinities of the extended reals, so every entry is taken to be a real number:
  then every hidden activation is real too, and both sides are coercions of one real expression.
-/
import proofs.«181979_g2000006315813370_pallasbulk_300_11_alg».proof.Proof.MlpSpec

noncomputable section

namespace Cert.Mlp

open Idealize.ShloMosaic Idealize.ShloMosaic.ValueIdx

/-- The coercion from the reals commutes with a finite sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A contraction of real rows plus a real bias is the coercion of the real contraction plus the bias. -/
theorem affine_coe {n : Nat} (a h : Fin n → ℝ) (b : ℝ) :
    ∑ k, (a k : EReal) * (h k : EReal) + (b : EReal) = ((∑ k, a k * h k + b : ℝ) : EReal) := by
  rw [EReal.coe_add, coe_sum]
  simp only [EReal.coe_mul]

/-- So it is a real number whenever its entries are. -/
theorem affine_real {n : Nat} (a h : Fin n → EReal) (b : EReal) (ha : ∀ k, ∃ r : ℝ, a k = r) (hh : ∀ k, ∃ r : ℝ, h k = r)
    (hb : ∃ r : ℝ, b = r) : ∃ r : ℝ, ∑ k, a k * h k + b = r := by
  choose ar har using ha
  choose hr hhr using hh
  obtain ⟨br, rfl⟩ := hb
  exact ⟨∑ k, ar k * hr k + br, by simp only [har, hhr]; exact affine_coe ar hr br⟩

/-- A rectified real is real. -/
theorem relu_real (x : EReal) (h : ∃ r : ℝ, x = r) : ∃ r : ℝ, max x 0 = r := by
  obtain ⟨r, rfl⟩ := h
  exact ⟨max r 0, by rw [← EReal.coe_zero]; exact (EReal.coe_strictMono.monotone.map_max).symm⟩

variable {N : Nat}

theorem hid1_real (xt : Arr 4 N) (w1t : Arr 32 4) (b1t : Arr 32 1) (hx : ∀ i, ∃ r : ℝ, xt i = r) (hw1 : ∀ i, ∃ r : ℝ, w1t i = r)
    (hb1 : ∀ i, ∃ r : ℝ, b1t i = r) (j : Fin 32) (n : Fin N) : ∃ r : ℝ, hid1 xt w1t b1t j n = r :=
  relu_real _ (affine_real _ _ _ (fun _ => hw1 _) (fun _ => hx _) (hb1 _))

theorem hid2_real (xt : Arr 4 N) (w1t : Arr 32 4) (b1t : Arr 32 1) (w2t : Arr 32 32) (b2t : Arr 32 1)
    (hx : ∀ i, ∃ r : ℝ, xt i = r) (hw1 : ∀ i, ∃ r : ℝ, w1t i = r) (hb1 : ∀ i, ∃ r : ℝ, b1t i = r)
    (hw2 : ∀ i, ∃ r : ℝ, w2t i = r) (hb2 : ∀ i, ∃ r : ℝ, b2t i = r) (j : Fin 32) (n : Fin N) :
    ∃ r : ℝ, hid2 xt w1t b1t w2t b2t j n = r :=
  relu_real _ (affine_real _ _ _ (fun _ => hw2 _) (fun _ => hid1_real xt w1t b1t hx hw1 hb1 _ n) (hb2 _))

/-- The logistic function of a real number. -/
theorem sigm_coe (z : ℝ) : sigm (z : EReal) = (((1 + Real.exp (-z))⁻¹ : ℝ) : EReal) := by
  have hne : (1 + Real.exp (-z) : ℝ) ≠ 0 := by positivity
  unfold sigm
  rw [zero_sub, ← EReal.coe_neg, Ideal.exp_coe, ← EReal.coe_one, ← EReal.coe_add, Ideal.div_coe hne, ← EReal.coe_mul]
  exact congrArg _ (by rw [one_mul, one_div])

/-- The second class's probability: 1 / (1 + exp d) = 1 - 1 / (1 + exp (-d)). -/
theorem sigm_neg (d : ℝ) : sigm ((-d : ℝ) : EReal) = 1 - sigm (d : EReal) := by
  rw [sigm_coe, sigm_coe, ← EReal.coe_one, ← EReal.coe_sub, neg_neg]
  refine congrArg _ ?_
  have hp : 0 < Real.exp d := Real.exp_pos d
  rw [Real.exp_neg]
  field_simp
  ring

/-- With the output layer's weight rows and biases replaced by their differences (row 0 minus row 1, row 1 minus row 0),
    the logistic function of each logit is the two-class softmax of the plain logits, on real entries. -/
theorem outSig_diff_eq_outPair (xt : Arr 4 N) (w1t : Arr 32 4) (b1t : Arr 32 1) (w2t : Arr 32 32) (b2t : Arr 32 1)
    (w3t : Arr 2 32) (b3t : Arr 2 1) (w3d : Arr 2 32) (b3d : Arr 2 1)
    (hx : ∀ i, ∃ r : ℝ, xt i = r) (hw1 : ∀ i, ∃ r : ℝ, w1t i = r) (hb1 : ∀ i, ∃ r : ℝ, b1t i = r)
    (hw2 : ∀ i, ∃ r : ℝ, w2t i = r) (hb2 : ∀ i, ∃ r : ℝ, b2t i = r)
    (hw3 : ∀ i, ∃ r : ℝ, w3t i = r) (hb3 : ∀ i, ∃ r : ℝ, b3t i = r)
    (hw3d0 : ∀ k : Fin 32, w3d (ix2 (0 : Fin 2) k) = w3t (ix2 (0 : Fin 2) k) - w3t (ix2 (1 : Fin 2) k))
    (hw3d1 : ∀ k : Fin 32, w3d (ix2 (1 : Fin 2) k) = w3t (ix2 (1 : Fin 2) k) - w3t (ix2 (0 : Fin 2) k))
    (hb3d0 : b3d (ix2 (0 : Fin 2) (0 : Fin 1)) = b3t (ix2 (0 : Fin 2) (0 : Fin 1)) - b3t (ix2 (1 : Fin 2) (0 : Fin 1)))
    (hb3d1 : b3d (ix2 (1 : Fin 2) (0 : Fin 1)) = b3t (ix2 (1 : Fin 2) (0 : Fin 1)) - b3t (ix2 (0 : Fin 2) (0 : Fin 1))) :
    outSig xt w1t b1t w2t b2t w3d b3d = outPair xt w1t b1t w2t b2t w3t b3t := by
  funext i
  obtain ⟨c, n, rfl⟩ : ∃ (c : Fin 2) (n : Fin N), i = ix2 c n := ⟨i 0, i 1, eq_ix2 i⟩
  have hh : ∀ k, ∃ r : ℝ, hid2 xt w1t b1t w2t b2t k n = r := fun k => hid2_real xt w1t b1t w2t b2t hx hw1 hb1 hw2 hb2 k n
  choose hr hhr using hh
  choose wr hwr using hw3
  choose br hbr using hb3
  -- the plain logits, as real numbers
  have hL : ∀ c' : Fin 2, logit xt w1t b1t w2t b2t w3t b3t c' n
      = ((∑ k, wr (ix2 c' k) * hr k + br (ix2 c' (0 : Fin 1)) : ℝ) : EReal) := by
    intro c'
    unfold logit
    simp only [hhr, hwr, hbr]
    exact affine_coe _ _ _
  -- the logits of the difference rows
  have hD0 : logit xt w1t b1t w2t b2t w3d b3d 0 n
      = ((∑ k, (wr (ix2 (0 : Fin 2) k) - wr (ix2 (1 : Fin 2) k)) * hr k
          + (br (ix2 (0 : Fin 2) (0 : Fin 1)) - br (ix2 (1 : Fin 2) (0 : Fin 1))) : ℝ) : EReal) := by
    unfold logit
    simp only [hhr, hw3d0, hb3d0, hwr, hbr, ← EReal.coe_sub]
    exact affine_coe _ _ _
  have hD1 : logit xt w1t b1t w2t b2t w3d b3d 1 n
      = ((∑ k, (wr (ix2 (1 : Fin 2) k) - wr (ix2 (0 : Fin 2) k)) * hr k
          + (br (ix2 (1 : Fin 2) (0 : Fin 1)) - br (ix2 (0 : Fin 2) (0 : Fin 1))) : ℝ) : EReal) := by
    unfold logit
    simp only [hhr, hw3d1, hb3d1, hwr, hbr, ← EReal.coe_sub]
    exact affine_coe _ _ _
  -- a difference of weight rows moves across the contraction
  have e0 : (∑ k, (wr (ix2 (0 : Fin 2) k) - wr (ix2 (1 : Fin 2) k)) * hr k
        + (br (ix2 (0 : Fin 2) (0 : Fin 1)) - br (ix2 (1 : Fin 2) (0 : Fin 1))) : ℝ)
      = (∑ k, wr (ix2 (0 : Fin 2) k) * hr k + br (ix2 (0 : Fin 2) (0 : Fin 1)))
        - (∑ k, wr (ix2 (1 : Fin 2) k) * hr k + br (ix2 (1 : Fin 2) (0 : Fin 1))) := by
    simp only [sub_mul, Finset.sum_sub_distrib]
    ring
  have e1 : (∑ k, (wr (ix2 (1 : Fin 2) k) - wr (ix2 (0 : Fin 2) k)) * hr k
        + (br (ix2 (1 : Fin 2) (0 : Fin 1)) - br (ix2 (0 : Fin 2) (0 : Fin 1))) : ℝ)
      = -((∑ k, wr (ix2 (0 : Fin 2) k) * hr k + br (ix2 (0 : Fin 2) (0 : Fin 1)))
        - (∑ k, wr (ix2 (1 : Fin 2) k) * hr k + br (ix2 (1 : Fin 2) (0 : Fin 1)))) := by
    simp only [sub_mul, Finset.sum_sub_distrib]
    ring
  rcases c with ⟨_ | _ | c, hc⟩
  · show sigm (logit xt w1t b1t w2t b2t w3d b3d 0 n)
      = sigm (logit xt w1t b1t w2t b2t w3t b3t 0 n - logit xt w1t b1t w2t b2t w3t b3t 1 n)
    rw [hD0, hL 0, hL 1, ← EReal.coe_sub, e0]
  · show sigm (logit xt w1t b1t w2t b2t w3d b3d 1 n)
      = 1 - sigm (logit xt w1t b1t w2t b2t w3t b3t 0 n - logit xt w1t b1t w2t b2t w3t b3t 1 n)
    rw [hD1, hL 0, hL 1, ← EReal.coe_sub, e1, sigm_neg]
  · omega

end Cert.Mlp

end
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.Finite.lean ====
/-
  The precondition read back.  "Every float input is finite" is, per argument array, the conjunction over all entries of
  |x| < +inf, and the seven conjunctions are joined by `and`.  Its value is the one word 1 exactly when every entry of every
  array passes the test, and an extended real whose absolute value is below +inf is a real number.
-/
import proofs.«181979_g2000006315813370_pallasbulk_300_11_alg».proof.Pre_finite_inputs
import proofs.«181979_g2000006315813370_pallasbulk_300_11_alg».proof.Proof.LibFiniteEReal
import Idealize.ShloMosaic.Lib.ReduceAll
import Idealize.ShloMosaic.Lib.Affine
import Idealize.ShloMosaic.Lib.ValueIdx

noncomputable section

namespace Cert.Finite

open Idealize.ShloMosaic Idealize.ShloMosaic.ValueIdx Cert.Pre_finite_inputs

instance : Subsingleton S_.Idx := ⟨fun a b => funext fun d => d.elim0⟩

/-- One array's test: if the conjunction over all entries of |x| < +inf is 1, every entry is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = r :=
  Cert.Lib.FiniteEReal.real_of_abs_lt (x i) (Host.reduce_andi_all _ _ hr hu ix0 e i)

variable [Cert.Pre_finite_inputs.Facts]

/-- Under the precondition every entry of every argument array is a real number. -/
theorem real_of_pre (a0 : FVec Ideal S2097152x4 .f32) (a1 : FVec Ideal S4x32 .f32) (a2 : FVec Ideal S1x32 .f32)
    (a3 : FVec Ideal S32x32 .f32) (a4 : FVec Ideal S1x32 .f32) (a5 : FVec Ideal S32x2 .f32) (a6 : FVec Ideal S1x2 .f32)
    (h : fn (F := Ideal) a0 a1 a2 a3 a4 a5 a6 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) := by
  have h0 := congrFun h ix0
  dsimp only [fn, fn_part1] at h0
  change IntOp.andi _ _ = 1#1 at h0
  obtain ⟨h0, e6⟩ := IntOp.andi_eq_one.1 h0
  change IntOp.andi _ _ = 1#1 at h0
  obtain ⟨h0, e5⟩ := IntOp.andi_eq_one.1 h0
  change IntOp.andi _ _ = 1#1 at h0
  obtain ⟨h0, e4⟩ := IntOp.andi_eq_one.1 h0
  change IntOp.andi _ _ = 1#1 at h0
  obtain ⟨h0, e3⟩ := IntOp.andi_eq_one.1 h0
  change IntOp.andi _ _ = 1#1 at h0
  obtain ⟨h0, e2⟩ := IntOp.andi_eq_one.1 h0
  change IntOp.andi _ _ = 1#1 at h0
  obtain ⟨e0, e1⟩ := IntOp.andi_eq_one.1 h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6⟩

end Cert.Finite

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.KHost.lean ====
/-
  The host lines in front of the call, read back: what each operand array of the call holds as a function of the
  program's arguments.  x, w1, w2 arrive transposed (features first), b1 and b2 as columns.  The output layer arrives as
  DIFFERENCES: its weight rows are w3[:,0] - w3[:,1] and w3[:,1] - w3[:,0] (sliced, subtracted, stacked and
  transposed), and its bias column is (b3[0] - b3[1], b3[1] - b3[0]).  The two difference arrays are read here at their
  entries.  (Rounding the weights to the narrower float format is the identity at the ideal instance.)
-/
import proofs.«181979_g2000006315813370_pallasbulk_300_11_alg».proof.Proof.Gen.KernelIdeal.Frame
import proofs.«181979_g2000006315813370_pallasbulk_300_11_alg».proof.Proof.LibKeepdimsColumn
import Idealize.ShloMosaic.Lib.StableHlo.Run
import Idealize.ShloMosaic.Lib.ValueLayout
import Idealize.ShloMosaic.Lib.Pipeline.Value

noncomputable section

namespace Cert.KernelIdeal.HostValue

open Cert.KernelIdeal Cert.KernelIdeal.Gen Idealize.ShloMosaic Idealize.ShloMosaic.TcCoe Idealize.SL.Sem Idealize.ShloMosaic.ValueIdx

/-! ## The difference arrays as functions of w3 and b3 -/

/-- The output layer's weight rows as the call receives them: (w3[:,0] - w3[:,1], w3[:,1] - w3[:,0]), transposed. -/
def w3diff (A5 : S32x2.Idx → EReal) : S2x32.Idx → EReal :=
  truncf (F := Ideal) .bf16 (transpose S2x32 [1, 0]
    (concatenate S32x2 1
      [⟨S32x1, broadcastInDim S32x1 ![0] bcast_S32_S32x1_0
          (subf (F := Ideal) (φ := .f32) (shapeCast S32 (extractStridedSlice S32x1 ![0, 0] A5 slices_S32x2_S32x1_0_0) shapeCasts_S32x1_S32)
            (shapeCast S32 (extractStridedSlice S32x1 ![0, 1] A5 slices_S32x2_S32x1_0_1) shapeCasts_S32x1_S32))⟩,
       ⟨S32x1, broadcastInDim S32x1 ![0] bcast_S32_S32x1_0
          (subf (F := Ideal) (φ := .f32) (shapeCast S32 (extractStridedSlice S32x1 ![0, 1] A5 slices_S32x2_S32x1_0_1) shapeCasts_S32x1_S32)
            (shapeCast S32 (extractStridedSlice S32x1 ![0, 0] A5 slices_S32x2_S32x1_0_0) shapeCasts_S32x1_S32))⟩]
      concatenates_S32x1_S32x1_S32x2_d1) transposes_S32x2_S2x32_1_0) bitsLt_bf16_f32

/-- The output layer's bias column as the call receives it: (b3[0] - b3[1], b3[1] - b3[0]). -/
def b3diff (A6 : S1x2.Idx → EReal) : S2x1.Idx → EReal :=
  shapeCast S2x1
    (concatenate S2 0
      [⟨S1, broadcastInDim S1 ![] bcast_S_S1
          (subf (F := Ideal) (φ := .f32) (shapeCast S_ (extractStridedSlice S1x1 ![0, 0] A6 slices_S1x2_S1x1_0_0) shapeCasts_S1x1_S_)
            (shapeCast S_ (extractStridedSlice S1x1 ![0, 1] A6 slices_S1x2_S1x1_0_1) shapeCasts_S1x1_S_))⟩,
       ⟨S1, broadcastInDim S1 ![] bcast_S_S1
          (subf (F := Ideal) (φ := .f32) (shapeCast S_ (extractStridedSlice S1x1 ![0, 1] A6 slices_S1x2_S1x1_0_1) shapeCasts_S1x1_S_)
            (shapeCast S_ (extractStridedSlice S1x1 ![0, 0] A6 slices_S1x2_S1x1_0_0) shapeCasts_S1x1_S_))⟩]
      concatenates_S1_S1_S2_d0) shapeCasts_S2_S2x1

/-- Column `o` of w3 as a flat vector, at entry k. -/
theorem col_apply (A5 : S32x2.Idx → EReal) (o : Nat) (h : S32x2.Slices ![0, o] S32x1) (k : Fin 32) (o' : Fin 2) (ho : o'.val = o) :
    shapeCast S32 (extractStridedSlice S32x1 ![0, o] A5 h) shapeCasts_S32x1_S32 (ix1 k) = A5 (ix2 k o') := by
  rw [shapeCast_apply _ shapeCasts_S32x1_S32 (ix1 k) (ix2 k (0 : Fin 1)) (by
    rw [Shape.rowMajor_val_two, Shape.rowMajor_val_one]
    show k.val * 1 + 0 = k.val
    omega)]
  exact slice2_axis1_apply o A5 h k (0 : Fin 1) o' (by rw [ho]; rfl)

/-- A difference of two flat vectors broadcast to a column, at row k. -/
theorem column_apply (v : S32.Idx → EReal) (k : Fin 32) :
    broadcastInDim S32x1 ![0] bcast_S32_S32x1_0 v (ix2 k (0 : Fin 1)) = v (ix1 k) :=
  broadcastInDim_apply _ _ v _ (ix1 k) fun a => match a with | ⟨0, _⟩ => rfl

/-- Row 0 of the difference weights: w3[k,0] - w3[k,1]. -/
theorem w3diff_apply0 (A5 : S32x2.Idx → EReal) (k : Fin 32) :
    w3diff A5 (ix2 (0 : Fin 2) k) = A5 (ix2 k (0 : Fin 2)) - A5 (ix2 k (1 : Fin 2)) := by
  unfold w3diff
  rw [truncf_apply, transpose_ix2_apply,
    concatenate_pair_apply_left (s₁ := S32x1) (s₂ := S32x1) (t := S32x2) (1 : Fin 2) _ _ concatenates_S32x1_S32x1_S32x2_d1 (ix2 k (0 : Fin 2)) rfl (ix2 k (0 : Fin 1))
      (fun b => match b with | ⟨0, _⟩ => rfl | ⟨1, _⟩ => rfl),
    column_apply, subf_apply, col_apply A5 0 _ k 0 rfl, col_apply A5 1 _ k 1 rfl]

/-- Row 1 of the difference weights: w3[k,1] - w3[k,0]. -/
theorem w3diff_apply1 (A5 : S32x2.Idx → EReal) (k : Fin 32) :
    w3diff A5 (ix2 (1 : Fin 2) k) = A5 (ix2 k (1 : Fin 2)) - A5 (ix2 k (0 : Fin 2)) := by
  unfold w3diff
  rw [truncf_apply, transpose_ix2_apply,
    concatenate_pair_apply_right (s₁ := S32x1) (s₂ := S32x1) (t := S32x2) (1 : Fin 2) _ _ concatenates_S32x1_S32x1_S32x2_d1 (ix2 k (1 : Fin 2)) rfl rfl (ix2 k (0 : Fin 1))
      (fun b hb => match b, hb with | ⟨0, _⟩, _ => rfl | ⟨1, _⟩, hb => absurd rfl hb) rfl,
    column_apply, subf_apply, col_apply A5 1 _ k 1 rfl, col_apply A5 0 _ k 0 rfl]

/-- Entry `o` of b3 as a scalar. -/
theorem scal_apply (A6 : S1x2.Idx → EReal) (o : Nat) (h : S1x2.Slices ![0, o] S1x1) (o' : Fin 2) (ho : o'.val = o) :
    shapeCast S_ (extractStridedSlice S1x1 ![0, o] A6 h) shapeCasts_S1x1_S_ ix0 = A6 (ix2 (0 : Fin 1) o') := by
  rw [shapeCast_apply _ shapeCasts_S1x1_S_ ix0 (ix2 (0 : Fin 1) (0 : Fin 1)) (by
    rw [Shape.rowMajor_val_two]
    rfl)]
  exact slice2_axis1_apply o A6 h (0 : Fin 1) (0 : Fin 1) o' (by rw [ho]; rfl)

/-- A scalar broadcast to a one-entry vector. -/
theorem single_apply (v : S_.Idx → EReal) : broadcastInDim S1 ![] bcast_S_S1 v (ix1 (0 : Fin 1)) = v ix0 :=
  broadcastInDim_apply _ _ v _ ix0 fun a => a.elim0

/-- Row 0 of the difference bias: b3[0] - b3[1]. -/
theorem b3diff_apply0 (A6 : S1x2.Idx → EReal) :
    b3diff A6 (ix2 (0 : Fin 2) (0 : Fin 1)) = A6 (ix2 (0 : Fin 1) (0 : Fin 2)) - A6 (ix2 (0 : Fin 1) (1 : Fin 2)) := by
  unfold b3diff
  rw [Cert.LibKeepdims.shapeCast_a_a1_apply,
    concatenate_pair_apply_left (s₁ := S1) (s₂ := S1) (t := S2) (0 : Fin 1) _ _ concatenates_S1_S1_S2_d0 (ix1 (0 : Fin 2)) rfl (ix1 (0 : Fin 1))
      (fun b => match b with | ⟨0, _⟩ => rfl),
    single_apply, subf_apply, scal_apply A6 0 _ 0 rfl, scal_apply A6 1 _ 1 rfl]

/-- Row 1 of the difference bias: b3[1] - b3[0]. -/
theorem b3diff_apply1 (A6 : S1x2.Idx → EReal) :
    b3diff A6 (ix2 (1 : Fin 2) (0 : Fin 1)) = A6 (ix2 (0 : Fin 1) (1 : Fin 2)) - A6 (ix2 (0 : Fin 1) (0 : Fin 2)) := by
  unfold b3diff
  rw [Cert.LibKeepdims.shapeCast_a_a1_apply,
    concatenate_pair_apply_right (s₁ := S1) (s₂ := S1) (t := S2) (0 : Fin 1) _ _ concatenates_S1_S1_S2_d0 (ix1 (1 : Fin 2)) rfl rfl (ix1 (0 : Fin 1))
      (fun b hb => match b, hb with | ⟨0, _⟩, hb => absurd rfl hb) rfl,
    single_apply, subf_apply, scal_apply A6 1 _ 1 rfl, scal_apply A6 0 _ 0 rfl]

/-! ## The call's operand arrays -/

variable (m : (ℓ : Loc nD τ sig) → Buf (Elt Ideal) ℓ)

theorem V_xt (c : Dev nD) : (V m c main_v0 : S4x2097152.Idx → EReal)
    = transpose S4x2097152 [1, 0] (m ((c : Thread nD τ).loc main_arg0)) transposes_S2097152x4_S4x2097152_1_0 := by
  show StableHlo.after hostOps0 (fun b => m (c, b)) (Proc.devRef .tc main_v0) = _
  after_results

theorem V_w1t (c : Dev nD) : (V m c main_v28 : S32x4.Idx → EReal)
    = transpose S32x4 [1, 0] (m ((c : Thread nD τ).loc main_arg1)) transposes_S4x32_S32x4_1_0 := by
  show StableHlo.after hostOps0 (fun b => m (c, b)) (Proc.devRef .tc main_v28) = _
  after_results
  rfl

theorem V_b1t (c : Dev nD) : (V m c main_v34 : S32x1.Idx → EReal)
    = shapeCast S32x1 (m ((c : Thread nD τ).loc main_arg2)) shapeCasts_S1x32_S32x1 := by
  show StableHlo.after hostOps0 (fun b => m (c, b)) (Proc.devRef .tc main_v34) = _
  after_results
  rfl

theorem V_w2t (c : Dev nD) : (V m c main_v30 : S32x32.Idx → EReal)
    = transpose S32x32 [1, 0] (m ((c : Thread nD τ).loc main_arg3)) transposes_S32x32_S32x32_1_0 := by
  show StableHlo.after hostOps0 (fun b => m (c, b)) (Proc.devRef .tc main_v30) = _
  after_results
  rfl

theorem V_b2t (c : Dev nD) : (V m c main_v35 : S32x1.Idx → EReal)
    = shapeCast S32x1 (m ((c : Thread nD τ).loc main_arg4)) shapeCasts_S1x32_S32x1 := by
  show StableHlo.after hostOps0 (fun b => m (c, b)) (Proc.devRef .tc main_v35) = _
  after_results
  rfl

theorem V_w3d (c : Dev nD) : (V m c main_v32 : S2x32.Idx → EReal) = w3diff (m ((c : Thread nD τ).loc main_arg5)) := by
  show StableHlo.after hostOps0 (fun b => m (c, b)) (Proc.devRef .tc main_v32) = _
  after_results
  rfl

set_option maxHeartbeats 2000000 in
theorem V_b3d (c : Dev nD) : (V m c main_v33 : S2x1.Idx → EReal) = b3diff (m ((c : Thread nD τ).loc main_arg6)) := by
  dsimp only [Gen.V, Gen.V0]
  simp only [hostOps0, List.flatten_cons, List.flatten_nil, List.append_nil, List.cons_append, List.nil_append]
  after_results
  rfl

end Cert.KernelIdeal.HostValue

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.MlpLayer.lean ====
/-
  One dense layer as both kernels compute it, read at an entry: a matrix product into the zero accumulator plus a bias
  column repeated along the batch columns,

    (w · h + b)[r, q] = sum_k w[r, k] * h[k, q] + b[r, 0],

  for any sizes, at the ideal instance.
-/
import proofs.«181979_g2000006315813370_pallasbulk_300_11_alg».proof.Proof.LibSplitContraction
import proofs.«181979_g2000006315813370_pallasbulk_300_11_alg».proof.Proof.LibColumnBroadcast

noncomputable section

namespace Cert.Mlp

open Idealize.ShloMosaic Idealize.ShloMosaic.ValueIdx

/-- A matrix product into the zero accumulator plus a broadcast bias column, at entry (r, q). The six hypotheses on the
    dimension record are those of the matrix-product lemma: one contracted axis of extent K, and the coordinates of the
    operands' indices. -/
theorem affine_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (w : FVec Ideal ⟨2, ![n, K]⟩ φ₁) (h : FVec Ideal ⟨2, ![K, d]⟩ φ₂) (b : FVec Ideal ⟨2, ![n, 1]⟩ .f32)
    (hb : (⟨2, ![n, 1]⟩ : Shape).Broadcasts ⟨2, ![n, d]⟩) (r : Fin n) (q : Fin d) :
    addf (matmul D prec w h (constant (F := Ideal) ⟨2, ![n, d]⟩ .f32 0x00000000#32)) (broadcastTo ⟨2, ![n, d]⟩ b hb) (ix2 r q)
      = ∑ k : Fin K, w (ix2 r k) * h (ix2 k q) + b (ix2 r (0 : Fin 1)) := by
  rw [addf_apply, broadcastTo_a1_ab_apply]
  exact congrArg (· + b (ix2 r (0 : Fin 1))) (Cert.Lib.SplitContraction.matmul_zero_at D hr hs hl0 hl1 hr0 hr1 prec w h r q)

/-- The 32-bit word 0x3F800000 denotes the real number one. -/
theorem ofBits_one_f32 : Ideal.ofBits .f32 0x3F800000#32 = 1 := by
  have h : Ideal.ofBits .f32 0x3F800000#32 = ((1 : ℝ) : EReal) := by
    simp [Ideal.ofBits, Ideal.ieee, -EReal.coe_mul]
    norm_num
  exact h.trans EReal.coe_one

end Cert.Mlp

end
-- ==== Proof.KPayload.lean ====
/-
  What the kernel body computes from its loaded blocks, entry by entry: the three dense layers (matrix products into the
  zero accumulator, bias columns repeated along the batch columns, rectifiers) and the logistic function of each logit,
  which is the network's function `outSig` of the loaded blocks, for the 8192 batch columns of one block.  (Rounding the
  operands to the narrower float format is the identity at the ideal instance.)
-/
import proofs.«181979_g2000006315813370_pallasbulk_300_11_alg».proof.Proof.Gen.KernelIdeal.Frame
import proofs.«181979_g2000006315813370_pallasbulk_300_11_alg».proof.Proof.MlpSpec
import proofs.«181979_g2000006315813370_pallasbulk_300_11_alg».proof.Proof.MlpLayer
import Idealize.ShloMosaic.Lib.Pipeline.Value

noncomputable section

namespace Cert.KernelIdeal.Payload

open Cert.KernelIdeal Cert.KernelIdeal.Gen Idealize.ShloMosaic Idealize.ShloMosaic.ValueIdx Cert.Mlp

/-! ## The three matrix products' dimension records: one contracted axis, rows by columns -/

theorem D1_rank : dot_S32x4_S4x8192_S32x8192_1_0_0_1_n_n.contr.rank = 1 := rfl
theorem D1_size : dot_S32x4_S4x8192_S32x8192_1_0_0_1_n_n.contr.size ⟨0, by rw [D1_rank]; omega⟩ = 4 := rfl
theorem D1_l0 : ∀ j q, (dot_S32x4_S4x8192_S32x8192_1_0_0_1_n_n.lhsIdx j q 0).val = (j 0).val := by
  intro j q
  simp [DotDims.lhsIdx, dot_S32x4_S4x8192_S32x8192_1_0_0_1_n_n]
  rfl
theorem D1_l1 : ∀ j q, (dot_S32x4_S4x8192_S32x8192_1_0_0_1_n_n.lhsIdx j q 1).val = (q ⟨0, by rw [D1_rank]; omega⟩).val :=
  fun j q => dot_S32x4_S4x8192_S32x8192_1_0_0_1_n_n.lhsIdx_val_of_single (cl := 1) rfl j q
theorem D1_r0 : ∀ j q, (dot_S32x4_S4x8192_S32x8192_1_0_0_1_n_n.rhsIdx j q 0).val = (q ⟨0, by rw [D1_rank]; omega⟩).val :=
  fun j q => dot_S32x4_S4x8192_S32x8192_1_0_0_1_n_n.rhsIdx_val_of_single (cr := 0) rfl j q
theorem D1_r1 : ∀ j q, (dot_S32x4_S4x8192_S32x8192_1_0_0_1_n_n.rhsIdx j q 1).val = (j 1).val := by
  intro j q
  simp [DotDims.rhsIdx, dot_S32x4_S4x8192_S32x8192_1_0_0_1_n_n]
  rfl

theorem D2_rank : dot_S32x32_S32x8192_S32x8192_1_0_0_1_n_n.contr.rank = 1 := rfl
theorem D2_size : dot_S32x32_S32x8192_S32x8192_1_0_0_1_n_n.contr.size ⟨0, by rw [D2_rank]; omega⟩ = 32 := rfl
theorem D2_l0 : ∀ j q, (dot_S32x32_S32x8192_S32x8192_1_0_0_1_n_n.lhsIdx j q 0).val = (j 0).val := by
  intro j q
  simp [DotDims.lhsIdx, dot_S32x32_S32x8192_S32x8192_1_0_0_1_n_n]
  rfl
theorem D2_l1 : ∀ j q, (dot_S32x32_S32x8192_S32x8192_1_0_0_1_n_n.lhsIdx j q 1).val = (q ⟨0, by rw [D2_rank]; omega⟩).val :=
  fun j q => dot_S32x32_S32x8192_S32x8192_1_0_0_1_n_n.lhsIdx_val_of_single (cl := 1) rfl j q
theorem D2_r0 : ∀ j q, (dot_S32x32_S32x8192_S32x8192_1_0_0_1_n_n.rhsIdx j q 0).val = (q ⟨0, by rw [D2_rank]; omega⟩).val :=
  fun j q => dot_S32x32_S32x8192_S32x8192_1_0_0_1_n_n.rhsIdx_val_of_single (cr := 0) rfl j q
theorem D2_r1 : ∀ j q, (dot_S32x32_S32x8192_S32x8192_1_0_0_1_n_n.rhsIdx j q 1).val = (j 1).val := by
  intro j q
  simp [DotDims.rhsIdx, dot_S32x32_S32x8192_S32x8192_1_0_0_1_n_n]
  rfl

theorem D3_rank : dot_S2x32_S32x8192_S2x8192_1_0_0_1_n_n.contr.rank = 1 := rfl
theorem D3_size : dot_S2x32_S32x8192_S2x8192_1_0_0_1_n_n.contr.size ⟨0, by rw [D3_rank]; omega⟩ = 32 := rfl
theorem D3_l0 : ∀ j q, (dot_S2x32_S32x8192_S2x8192_1_0_0_1_n_n.lhsIdx j q 0).val = (j 0).val := by
  intro j q
  simp [DotDims.lhsIdx, dot_S2x32_S32x8192_S2x8192_1_0_0_1_n_n]
  rfl
theorem D3_l1 : ∀ j q, (dot_S2x32_S32x8192_S2x8192_1_0_0_1_n_n.lhsIdx j q 1).val = (q ⟨0, by rw [D3_rank]; omega⟩).val :=
  fun j q => dot_S2x32_S32x8192_S2x8192_1_0_0_1_n_n.lhsIdx_val_of_single (cl := 1) rfl j q
theorem D3_r0 : ∀ j q, (dot_S2x32_S32x8192_S2x8192_1_0_0_1_n_n.rhsIdx j q 0).val = (q ⟨0, by rw [D3_rank]; omega⟩).val :=
  fun j q => dot_S2x32_S32x8192_S2x8192_1_0_0_1_n_n.rhsIdx_val_of_single (cr := 0) rfl j q
theorem D3_r1 : ∀ j q, (dot_S2x32_S32x8192_S2x8192_1_0_0_1_n_n.rhsIdx j q 1).val = (j 1).val := by
  intro j q
  simp [DotDims.rhsIdx, dot_S2x32_S32x8192_S2x8192_1_0_0_1_n_n]
  rfl

/-- The first layer's activation at an entry. -/
theorem layer1 (x0 : FVec Ideal S4x8192 .f32) (x1 : FVec Ideal S32x4 .bf16) (x2 : FVec Ideal S32x1 .f32) (j : Fin 32) (q : Fin 8192) :
    maximumf (addf (matmul dot_S32x4_S4x8192_S32x8192_1_0_0_1_n_n none x1 (truncf .bf16 x0 bitsLt_bf16_f32) (constant (F := Ideal) S32x8192 .f32 0x00000000#32))
        (broadcastTo S32x8192 x2 broadcasts_S32x1_S32x8192)) (broadcast S32x8192 (FloatOps.ofBits (F := Ideal) .f32 0x00000000#32)) (ix2 j q)
      = hid1 x0 x1 x2 j q := by
  rw [maximumf_apply, affine_at _ D1_rank D1_size D1_l0 D1_l1 D1_r0 D1_r1, broadcast_apply]
  unfold hid1
  exact congrArg (max _) Ideal.ofBits_zero_f32

/-- The second layer's activation at an entry, over any first-layer activations. -/
theorem layer2 (h1 : FVec Ideal S32x8192 .f32) (x3 : FVec Ideal S32x32 .bf16) (x4 : FVec Ideal S32x1 .f32) (j : Fin 32) (q : Fin 8192) :
    maximumf (addf (matmul dot_S32x32_S32x8192_S32x8192_1_0_0_1_n_n none x3 (truncf .bf16 h1 bitsLt_bf16_f32) (constant (F := Ideal) S32x8192 .f32 0x00000000#32))
        (broadcastTo S32x8192 x4 broadcasts_S32x1_S32x8192)) (broadcast S32x8192 (FloatOps.ofBits (F := Ideal) .f32 0x00000000#32)) (ix2 j q)
      = max (∑ k : Fin 32, x3 (ix2 j k) * h1 (ix2 k q) + x4 (ix2 j (0 : Fin 1))) 0 := by
  rw [maximumf_apply, affine_at _ D2_rank D2_size D2_l0 D2_l1 D2_r0 D2_r1, broadcast_apply]
  exact congrArg (max _) Ideal.ofBits_zero_f32

/-- The output layer before its nonlinearity at an entry, over any second-layer activations. -/
theorem layer3 (h2 : FVec Ideal S32x8192 .f32) (x5 : FVec Ideal S2x32 .bf16) (x6 : FVec Ideal S2x1 .f32) (c : Fin 2) (q : Fin 8192) :
    addf (matmul dot_S2x32_S32x8192_S2x8192_1_0_0_1_n_n none x5 (truncf .bf16 h2 bitsLt_bf16_f32) (constant (F := Ideal) S2x8192 .f32 0x00000000#32))
        (broadcastTo S2x8192 x6 broadcasts_S2x1_S2x8192) (ix2 c q)
      = ∑ k : Fin 32, x5 (ix2 c k) * h2 (ix2 k q) + x6 (ix2 c (0 : Fin 1)) :=
  affine_at _ D3_rank D3_size D3_l0 D3_l1 D3_r0 D3_r1 none x5 _ x6 _ c q

/-- The body's one stored value is the network's logistic outputs of the loaded blocks. -/
theorem pay_eq (x0 : Vec Ideal S4x8192 .f32) (x1 : Vec Ideal S32x4 .bf16) (x2 : Vec Ideal S32x1 .f32) (x3 : Vec Ideal S32x32 .bf16)
    (x4 : Vec Ideal S32x1 .f32) (x5 : Vec Ideal S2x32 .bf16) (x6 : Vec Ideal S2x1 .f32) :
    k0_pay1 (F := Ideal) x0 x1 x2 x3 x4 x5 x6 = outSig (N := 8192) x0 x1 x2 x3 x4 x5 x6 := by
  funext i
  obtain ⟨c, q, rfl⟩ : ∃ (c : Fin 2) (q : Fin 8192), i = ix2 c q := ⟨i 0, i 1, eq_ix2 i⟩
  unfold k0_pay1
  simp only [shapeCast_self]
  show Ideal.div (Ideal.ofBits .f32 0x3F800000#32) (Ideal.ofBits .f32 0x3F800000#32 + Ideal.exp (Ideal.ofBits .f32 0x00000000#32
      - (addf (matmul dot_S2x32_S32x8192_S2x8192_1_0_0_1_n_n none (x5 : FVec Ideal S2x32 .bf16) (truncf .bf16 _ bitsLt_bf16_f32) (constant (F := Ideal) S2x8192 .f32 0x00000000#32))
          (broadcastTo S2x8192 (x6 : FVec Ideal S2x1 .f32) broadcasts_S2x1_S2x8192)) (ix2 c q)))
    = sigm (logit x0 x1 x2 x3 x4 x5 x6 c q)
  rw [layer3]
  simp only [layer2, layer1]
  unfold sigm logit hid2
  rw [Ideal.ofBits_zero_f32, ofBits_one_f32]

end Cert.KernelIdeal.Payload

end
-- ==== Proof.KBlocks.lean ====
/-
  From blocks to the whole array.  Grid point t of the call computes batch columns t * 8192 … t * 8192 + 8191: its
  input block of x^T is those columns (every other operand is staged whole at every point), and it writes back those
  columns of the result.  The network's output at a batch column depends on that column of x^T only, so what point t
  writes back is block t of ONE whole-array function of the operand arrays, `outT`; the 256 blocks tile the result array,
  so after the call the result array is `outT`.
-/
import proofs.«181979_g2000006315813370_pallasbulk_300_11_alg».proof.Proof.Gen.KernelIdeal.Frame
import proofs.«181979_g2000006315813370_pallasbulk_300_11_alg».proof.Proof.KPayload
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx Cert.Mlp
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps over the grid: the x^T window and the result window sit at block (0, t); every other window at
    block (0, 0). -/
theorem idx_facts : ∀ t : Fin cfg0.N,
    win0_0.index t (0 : Fin 2) = 0 ∧ win0_0.index t (1 : Fin 2) = t.val
    ∧ win0_7.index t (0 : Fin 2) = 0 ∧ win0_7.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The call's result array: the network's outputs over the whole batch, of the operand arrays as the call finds them. -/
def outT (c : Dev nD) : S2x2097152.Idx → EReal :=
  outSig (N := 2097152) (V m c main_v0) (V m c main_v28) (V m c main_v34) (V m c main_v30) (V m c main_v35) (V m c main_v32) (V m c main_v33)

/-- The x^T block at point t is batch columns t * 8192 + q of x^T. -/
theorem blk_xt (c : Dev nD) (t : Fin cfg0.N) (f : Fin 4) (q : Fin 8192) (n : Fin 2097152) (hn : n.val = t.val * 8192 + q.val) :
    (iblk m c 0 t : S4x8192.Idx → EReal) (ix2 f q) = (V m c main_v0 : S4x2097152.Idx → EReal) (ix2 f n) := by
  obtain ⟨e0, e1, -⟩ := idx_facts t
  show V m c main_v0 (((cfg0.win 0).blk t).view.emb (ix2 f q)) = V m c main_v0 (ix2 f n)
  congr 1
  funext a
  apply Fin.ext
  match a with
  | ⟨0, _⟩ => show win0_0.index t (0 : Fin 2) * 4 + 1 * f.val = f.val; omega
  | ⟨1, _⟩ => show win0_0.index t (1 : Fin 2) * 8192 + 1 * q.val = n.val; omega

/-- Window 1's block at every point is its whole array. -/
theorem blk_1 (c : Dev nD) (t : Fin cfg0.N) : (iblk m c 1 t : S32x4.Idx → EReal) = V m c main_v28 := by
  obtain ⟨-, -, -, -, e0, e1, -⟩ := idx_facts t
  funext y
  show V m c main_v28 (((cfg0.win 1).blk t).view.emb y) = V m c main_v28 y
  congr 1
  funext a
  apply Fin.ext
  match a with
  | ⟨0, _⟩ => show win0_1.index t (0 : Fin 2) * 32 + 1 * (y 0).val = (y 0).val; omega
  | ⟨1, _⟩ => show win0_1.index t (1 : Fin 2) * 4 + 1 * (y 1).val = (y 1).val; omega

/-- Window 2's block at every point is its whole array. -/
theorem blk_2 (c : Dev nD) (t : Fin cfg0.N) : (iblk m c 2 t : S32x1.Idx → EReal) = V m c main_v34 := by
  obtain ⟨-, -, -, -, -, -, e0, e1, -⟩ := idx_facts t
  funext y
  show V m c main_v34 (((cfg0.win 2).blk t).view.emb y) = V m c main_v34 y
  congr 1
  funext a
  apply Fin.ext
  match a with
  | ⟨0, _⟩ => show win0_2.index t (0 : Fin 2) * 32 + 1 * (y 0).val = (y 0).val; omega
  | ⟨1, _⟩ => show win0_2.index t (1 : Fin 2) * 1 + 1 * (y 1).val = (y 1).val; omega

/-- Window 3's block at every point is its whole array. -/
theorem blk_3 (c : Dev nD) (t : Fin cfg0.N) : (iblk m c 3 t : S32x32.Idx → EReal) = V m c main_v30 := by
  obtain ⟨-, -, -, -, -, -, -, -, e0, e1, -⟩ := idx_facts t
  funext y
  show V m c main_v30 (((cfg0.win 3).blk t).view.emb y) = V m c main_v30 y
  congr 1
  funext a
  apply Fin.ext
  match a with
  | ⟨0, _⟩ => show win0_3.index t (0 : Fin 2) * 32 + 1 * (y 0).val = (y 0).val; omega
  | ⟨1, _⟩ => show win0_3.index t (1 : Fin 2) * 32 + 1 * (y 1).val = (y 1).val; omega

/-- Window 4's block at every point is its whole array. -/
theorem blk_4 (c : Dev nD) (t : Fin cfg0.N) : (iblk m c 4 t : S32x1.Idx → EReal) = V m c main_v35 := by
  obtain ⟨-, -, -, -, -, -, -, -, -, -, e0, e1, -⟩ := idx_facts t
  funext y
  show V m c main_v35 (((cfg0.win 4).blk t).view.emb y) = V m c main_v35 y
  congr 1
  funext a
  apply Fin.ext
  match a with
  | ⟨0, _⟩ => show win0_4.index t (0 : Fin 2) * 32 + 1 * (y 0).val = (y 0).val; omega
  | ⟨1, _⟩ => show win0_4.index t (1 : Fin 2) * 1 + 1 * (y 1).val = (y 1).val; omega

/-- Window 5's block at every point is its whole array. -/
theorem blk_5 (c : Dev nD) (t : Fin cfg0.N) : (iblk m c 5 t : S2x32.Idx → EReal) = V m c main_v32 := by
  obtain ⟨-, -, -, -, -, -, -, -, -, -, -, -, e0, e1, -⟩ := idx_facts t
  funext y
  show V m c main_v32 (((cfg0.win 5).blk t).view.emb y) = V m c main_v32 y
  congr 1
  funext a
  apply Fin.ext
  match a with
  | ⟨0, _⟩ => show win0_5.index t (0 : Fin 2) * 2 + 1 * (y 0).val = (y 0).val; omega
  | ⟨1, _⟩ => show win0_5.index t (1 : Fin 2) * 32 + 1 * (y 1).val = (y 1).val; omega

/-- Window 6's block at every point is its whole array. -/
theorem blk_6 (c : Dev nD) (t : Fin cfg0.N) : (iblk m c 6 t : S2x1.Idx → EReal) = V m c main_v33 := by
  obtain ⟨-, -, -, -, -, -, -, -, -, -, -, -, -, -, e0, e1⟩ := idx_facts t
  funext y
  show V m c main_v33 (((cfg0.win 6).blk t).view.emb y) = V m c main_v33 y
  congr 1
  funext a
  apply Fin.ext
  match a with
  | ⟨0, _⟩ => show win0_6.index t (0 : Fin 2) * 2 + 1 * (y 0).val = (y 0).val; omega
  | ⟨1, _⟩ => show win0_6.index t (1 : Fin 2) * 1 + 1 * (y 1).val = (y 1).val; omega

/-- WHAT POINT t WRITES BACK is block t of `outT`. -/
theorem flushed_eq (c : Dev nD) (t : Fin cfg0.N) :
    (dats m 0 c).flushed 7 t = ((cfg0.win 7).blk t).view.read (Elt Ideal) (outT m c) := by
  show (cfg0.win 7).cut (grid0.coords t) ((dats m 0 c).after 7 t) = _
  rw [after0_7]
  unfold out0_7
  rw [View.canon_unit_zero hz]
  simp only [View.ld_unit_zero (S := S4x8192) hz, View.ld_unit_zero (S := S32x4) hz, View.ld_unit_zero (S := S32x1) hz,
    View.ld_unit_zero (S := S32x32) hz, View.ld_unit_zero (S := S2x32) hz, View.ld_unit_zero (S := S2x1) hz]
  rw [Payload.pay_eq, blk_1, blk_2, blk_3, blk_4, blk_5, blk_6]
  obtain ⟨-, -, e2, e3, -⟩ := idx_facts t
  funext y
  show outSig (iblk m c 0 t) (V m c main_v28) (V m c main_v34) (V m c main_v30) (V m c main_v35) (V m c main_v32) (V m c main_v33) y
    = outT m c (((cfg0.win 7).blk t).view.emb y)
  unfold outT
  refine outSig_block (V m c main_v0) (iblk m c 0 t) (t.val * 8192) (fun f q n hn => blk_xt m c t f q n hn) _ _ _ _ _ _ y _ ?_ ?_
  · show win0_7.index t (0 : Fin 2) * 2 + 1 * (y 0).val = (y 0).val
    omega
  · show win0_7.index t (1 : Fin 2) * 8192 + 1 * (y 1).val = t.val * 8192 + (y 1).val
    omega

/-- An index of the result array is in point t's block iff each coordinate is in the block's range on its axis. -/
theorem mem_blk (t : Fin cfg0.N) (i : S2x2097152.Idx) :
    i ∈ ((cfg0.win 7).blk t).view.set ↔ ∀ a : Fin 2, win0_7.index t a * S2x8192.size a ≤ (i a).val ∧ (i a).val < win0_7.index t a * S2x8192.size a + S2x8192.size a := by
  show i ∈ ((View.whole main_v36).slice (win0_7.rect t)).set ↔ _
  rw [View.set_slice_whole, Rect.mem_set_unit]
  exact Iff.rfl

/-- Every index of the result array is in some point's block: batch column n is in block n / 8192. -/
theorem cover (i : S2x2097152.Idx) : ∃ t : Fin cfg0.N, (cfg0.win 7).flush t = true ∧ i ∈ ((cfg0.win 7).blk t).view.set := by
  have hi0 : (i 0).val < 2 := (i 0).isLt
  have hi1 : (i 1).val < 2097152 := (i 1).isLt
  have hN : cfg0.N = 256 := N_0
  let t : Fin cfg0.N := ⟨(i 1).val / 8192, by rw [hN]; omega⟩
  have htv : t.val = (i 1).val / 8192 := rfl
  obtain ⟨-, -, e2, e3, -⟩ := idx_facts t
  refine ⟨t, flush0_7 t, ?_⟩
  rw [mem_blk]
  intro a
  match a with
  | ⟨0, _⟩ => show win0_7.index t (0 : Fin 2) * 2 ≤ (i 0).val ∧ (i 0).val < win0_7.index t (0 : Fin 2) * 2 + 2; omega
  | ⟨1, _⟩ => show win0_7.index t (1 : Fin 2) * 8192 ≤ (i 1).val ∧ (i 1).val < win0_7.index t (1 : Fin 2) * 8192 + 8192; omega

/-- THE RESULT ARRAY after the call is `outT`. -/
theorem final (c : Dev nD) : (dats m 0 c).arrAt 7 cfg0.N = outT m c :=
  (dats m 0 c).arrAt_eq_of_cover 7 (outT m c) (fun t _ => flushed_eq m c t) cover

end Cert.KernelIdeal.Blocks

end
-- ==== Proof.KRun.lean ====
/-
  The whole program's result.  After the call the one remaining host line transposes the call's result array
  [2, batch] back to [batch, 2]; the call's result array is `outT` (the blocks tile it), so the program's result is the
  transpose of `outT`, and the argument arrays end as they were.
-/
import proofs.«181979_g2000006315813370_pallasbulk_300_11_alg».proof.Proof.Gen.KernelIdeal.Frame
import proofs.«181979_g2000006315813370_pallasbulk_300_11_alg».proof.Proof.KBlocks
import Idealize.ShloMosaic.Lib.StableHlo.Run
import Idealize.ShloMosaic.Lib.Pipeline.Value

noncomputable section

namespace Cert.KernelIdeal.RunValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The program's result after the last host line: the call's result array, transposed. -/
theorem result_eq (c : Dev nD) :
    Pipeline.afterTail₀ cfgs (dats m) 0 (V0 m) [hostOps1] c main_v37
      = transpose S2097152x2 [1, 0] (Blocks.outT m c) transposes_S2x2097152_S2097152x2_1_0 := by
  unfold Pipeline.afterTail₀
  show StableHlo.after hostOps1 _ (Proc.devRef .tc main_v37) = _
  after_results
  exact congrArg (fun a => transpose S2097152x2 [1, 0] a transposes_S2x2097152_S2097152x2_1_0)
    ((Pipeline.withArrays_arr spec0 launch0.win.arr_inj c _ _ 7).trans (Blocks.final m c))

/-- The run, read: every weakly fair execution ends with the result at the transpose of `outT` and the arguments unchanged. -/
theorem run : θ_run defs (onTc (τ := τ) (main (F := Ideal))) ⟨m, fun _ => 0, ρ⟩ fun r => ∀ c : Dev nD,
      r.2.mem ((c.tc : Thread nD τ).loc main_v37) = transpose S2097152x2 [1, 0] (Blocks.outT m c) transposes_S2x2097152_S2097152x2_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v37 (Pipeline.mem_restRefs_of main_v37 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.RunValue

end
-- ==== Proof.RHost.lean ====
/-
  The host lines in front of the reference's call, read back: each operand array of the call as a function of the
  program's arguments.  x, w1, w2, w3 arrive transposed (features first), b1, b2, b3 as columns.
-/
import proofs.«181979_g2000006315813370_pallasbulk_300_11_alg».proof.Proof.Gen.ReferenceIdeal.Frame
import Idealize.ShloMosaic.Lib.StableHlo.Run
import Idealize.ShloMosaic.Lib.ValueLayout
import Idealize.ShloMosaic.Lib.Pipeline.Value

noncomputable section

namespace Cert.ReferenceIdeal.HostValue

open Cert.ReferenceIdeal Cert.ReferenceIdeal.Gen Idealize.ShloMosaic Idealize.ShloMosaic.TcCoe Idealize.SL.Sem Idealize.ShloMosaic.ValueIdx

/-- The bias row b3 : [1, 2] as the column [2, 1] the call receives, at row c. -/
theorem b3col_apply (A6 : S1x2.Idx → EReal) (c : Fin 2) :
    shapeCast S2x1 A6 shapeCasts_S1x2_S2x1 (ix2 c (0 : Fin 1)) = A6 (ix2 (0 : Fin 1) c) :=
  shapeCast_apply A6 shapeCasts_S1x2_S2x1 _ _ (by
    rw [Shape.rowMajor_val_two, Shape.rowMajor_val_two]
    show 0 * 2 + c.val = c.val * 1 + 0
    omega)

variable (m : (ℓ : Loc nD τ sig) → Buf (Elt Ideal) ℓ)

theorem V_xt (c : Dev nD) : (V m c main_v0 : S4x2097152.Idx → EReal)
    = transpose S4x2097152 [1, 0] (m ((c : Thread nD τ).loc main_arg0)) transposes_S2097152x4_S4x2097152_1_0 := by
  show StableHlo.after hostOps0 (fun b => m (c, b)) (Proc.devRef .tc main_v0) = _
  after_results

theorem V_w1t (c : Dev nD) : (V m c main_v1 : S32x4.Idx → EReal)
    = transpose S32x4 [1, 0] (m ((c : Thread nD τ).loc main_arg1)) transposes_S4x32_S32x4_1_0 := by
  show StableHlo.after hostOps0 (fun b => m (c, b)) (Proc.devRef .tc main_v1) = _
  after_results

theorem V_b1t (c : Dev nD) : (V m c main_v4 : S32x1.Idx → EReal)
    = shapeCast S32x1 (m ((c : Thread nD τ).loc main_arg2)) shapeCasts_S1x32_S32x1 := by
  show StableHlo.after hostOps0 (fun b => m (c, b)) (Proc.devRef .tc main_v4) = _
  after_results
  rfl

theorem V_w2t (c : Dev nD) : (V m c main_v2 : S32x32.Idx → EReal)
    = transpose S32x32 [1, 0] (m ((c : Thread nD τ).loc main_arg3)) transposes_S32x32_S32x32_1_0 := by
  show StableHlo.after hostOps0 (fun b => m (c, b)) (Proc.devRef .tc main_v2) = _
  after_results

theorem V_b2t (c : Dev nD) : (V m c main_v5 : S32x1.Idx → EReal)
    = shapeCast S32x1 (m ((c : Thread nD τ).loc main_arg4)) shapeCasts_S1x32_S32x1 := by
  show StableHlo.after hostOps0 (fun b => m (c, b)) (Proc.devRef .tc main_v5) = _
  after_results
  rfl

theorem V_w3t (c : Dev nD) : (V m c main_v3 : S2x32.Idx → EReal)
    = transpose S2x32 [1, 0] (m ((c : Thread nD τ).loc main_arg5)) transposes_S32x2_S2x32_1_0 := by
  show StableHlo.after hostOps0 (fun b => m (c, b)) (Proc.devRef .tc main_v3) = _
  after_results

theorem V_b3t (c : Dev nD) : (V m c main_v6 : S2x1.Idx → EReal)
    = shapeCast S2x1 (m ((c : Thread nD τ).loc main_arg6)) shapeCasts_S1x2_S2x1 := by
  show StableHlo.after hostOps0 (fun b => m (c, b)) (Proc.devRef .tc main_v6) = _
  after_results
  rfl

end Cert.ReferenceIdeal.HostValue

end
-- ==== Proof.RPayload.lean ====
/-
  What the reference's kernel body computes from its loaded blocks, entry by entry: the same three dense layers, then
  the difference d of the two logit rows, p0 = 1 / (1 + exp (0 - d)) in row 0 and 1 - p0 in row 1 — the network's
  function `outPair` of the loaded blocks, for the 4096 batch columns of one block.
-/
import proofs.«181979_g2000006315813370_pallasbulk_300_11_alg».proof.Proof.Gen.ReferenceIdeal.Frame
import proofs.«181979_g2000006315813370_pallasbulk_300_11_alg».proof.Proof.MlpSpec
import proofs.«181979_g2000006315813370_pallasbulk_300_11_alg».proof.Proof.MlpLayer
import Idealize.ShloMosaic.Lib.Pipeline.Value
import Idealize.ShloMosaic.Lib.ValueLayout

noncomputable section

namespace Cert.ReferenceIdeal.Payload

open Cert.ReferenceIdeal Cert.ReferenceIdeal.Gen Idealize.ShloMosaic Idealize.ShloMosaic.ValueIdx Cert.Mlp

/-! ## The three matrix products' dimension records: one contracted axis, rows by columns -/

theorem D1_rank : dot_S32x4_S4x4096_S32x4096_1_0_0_1_n_n.contr.rank = 1 := rfl
theorem D1_size : dot_S32x4_S4x4096_S32x4096_1_0_0_1_n_n.contr.size ⟨0, by rw [D1_rank]; omega⟩ = 4 := rfl
theorem D1_l0 : ∀ j q, (dot_S32x4_S4x4096_S32x4096_1_0_0_1_n_n.lhsIdx j q 0).val = (j 0).val := by
  intro j q
  simp [DotDims.lhsIdx, dot_S32x4_S4x4096_S32x4096_1_0_0_1_n_n]
  rfl
theorem D1_l1 : ∀ j q, (dot_S32x4_S4x4096_S32x4096_1_0_0_1_n_n.lhsIdx j q 1).val = (q ⟨0, by rw [D1_rank]; omega⟩).val :=
  fun j q => dot_S32x4_S4x4096_S32x4096_1_0_0_1_n_n.lhsIdx_val_of_single (cl := 1) rfl j q
theorem D1_r0 : ∀ j q, (dot_S32x4_S4x4096_S32x4096_1_0_0_1_n_n.rhsIdx j q 0).val = (q ⟨0, by rw [D1_rank]; omega⟩).val :=
  fun j q => dot_S32x4_S4x4096_S32x4096_1_0_0_1_n_n.rhsIdx_val_of_single (cr := 0) rfl j q
theorem D1_r1 : ∀ j q, (dot_S32x4_S4x4096_S32x4096_1_0_0_1_n_n.rhsIdx j q 1).val = (j 1).val := by
  intro j q
  simp [DotDims.rhsIdx, dot_S32x4_S4x4096_S32x4096_1_0_0_1_n_n]
  rfl

theorem D2_rank : dot_S32x32_S32x4096_S32x4096_1_0_0_1_n_n.contr.rank = 1 := rfl
theorem D2_size : dot_S32x32_S32x4096_S32x4096_1_0_0_1_n_n.contr.size ⟨0, by rw [D2_rank]; omega⟩ = 32 := rfl
theorem D2_l0 : ∀ j q, (dot_S32x32_S32x4096_S32x4096_1_0_0_1_n_n.lhsIdx j q 0).val = (j 0).val := by
  intro j q
  simp [DotDims.lhsIdx, dot_S32x32_S32x4096_S32x4096_1_0_0_1_n_n]
  rfl
theorem D2_l1 : ∀ j q, (dot_S32x32_S32x4096_S32x4096_1_0_0_1_n_n.lhsIdx j q 1).val = (q ⟨0, by rw [D2_rank]; omega⟩).val :=
  fun j q => dot_S32x32_S32x4096_S32x4096_1_0_0_1_n_n.lhsIdx_val_of_single (cl := 1) rfl j q
theorem D2_r0 : ∀ j q, (dot_S32x32_S32x4096_S32x4096_1_0_0_1_n_n.rhsIdx j q 0).val = (q ⟨0, by rw [D2_rank]; omega⟩).val :=
  fun j q => dot_S32x32_S32x4096_S32x4096_1_0_0_1_n_n.rhsIdx_val_of_single (cr := 0) rfl j q
theorem D2_r1 : ∀ j q, (dot_S32x32_S32x4096_S32x4096_1_0_0_1_n_n.rhsIdx j q 1).val = (j 1).val := by
  intro j q
  simp [DotDims.rhsIdx, dot_S32x32_S32x4096_S32x4096_1_0_0_1_n_n]
  rfl

theorem D3_rank : dot_S2x32_S32x4096_S2x4096_1_0_0_1_n_n.contr.rank = 1 := rfl
theorem D3_size : dot_S2x32_S32x4096_S2x4096_1_0_0_1_n_n.contr.size ⟨0, by rw [D3_rank]; omega⟩ = 32 := rfl
theorem D3_l0 : ∀ j q, (dot_S2x32_S32x4096_S2x4096_1_0_0_1_n_n.lhsIdx j q 0).val = (j 0).val := by
  intro j q
  simp [DotDims.lhsIdx, dot_S2x32_S32x4096_S2x4096_1_0_0_1_n_n]
  rfl
theorem D3_l1 : ∀ j q, (dot_S2x32_S32x4096_S2x4096_1_0_0_1_n_n.lhsIdx j q 1).val = (q ⟨0, by rw [D3_rank]; omega⟩).val :=
  fun j q => dot_S2x32_S32x4096_S2x4096_1_0_0_1_n_n.lhsIdx_val_of_single (cl := 1) rfl j q
theorem D3_r0 : ∀ j q, (dot_S2x32_S32x4096_S2x4096_1_0_0_1_n_n.rhsIdx j q 0).val = (q ⟨0, by rw [D3_rank]; omega⟩).val :=
  fun j q => dot_S2x32_S32x4096_S2x4096_1_0_0_1_n_n.rhsIdx_val_of_single (cr := 0) rfl j q
theorem D3_r1 : ∀ j q, (dot_S2x32_S32x4096_S2x4096_1_0_0_1_n_n.rhsIdx j q 1).val = (j 1).val := by
  intro j q
  simp [DotDims.rhsIdx, dot_S2x32_S32x4096_S2x4096_1_0_0_1_n_n]
  rfl

/-- The first layer's activation at an entry. -/
theorem layer1 (x0 : FVec Ideal S4x4096 .f32) (x1 : FVec Ideal S32x4 .f32) (x2 : FVec Ideal S32x1 .f32) (j : Fin 32) (q : Fin 4096) :
    maximumf (addf (matmul dot_S32x4_S4x4096_S32x4096_1_0_0_1_n_n none x1 x0 (constant (F := Ideal) S32x4096 .f32 0x00000000#32))
        (broadcastTo S32x4096 x2 broadcasts_S32x1_S32x4096)) (broadcast S32x4096 (FloatOps.ofBits (F := Ideal) .f32 0x00000000#32)) (ix2 j q)
      = hid1 x0 x1 x2 j q := by
  rw [maximumf_apply, affine_at _ D1_rank D1_size D1_l0 D1_l1 D1_r0 D1_r1, broadcast_apply]
  unfold hid1
  exact congrArg (max _) Ideal.ofBits_zero_f32

/-- The second layer's activation at an entry, over any first-layer activations. -/
theorem layer2 (h1 : FVec Ideal S32x4096 .f32) (x3 : FVec Ideal S32x32 .f32) (x4 : FVec Ideal S32x1 .f32) (j : Fin 32) (q : Fin 4096) :
    maximumf (addf (matmul dot_S32x32_S32x4096_S32x4096_1_0_0_1_n_n none x3 h1 (constant (F := Ideal) S32x4096 .f32 0x00000000#32))
        (broadcastTo S32x4096 x4 broadcasts_S32x1_S32x4096)) (broadcast S32x4096 (FloatOps.ofBits (F := Ideal) .f32 0x00000000#32)) (ix2 j q)
      = max (∑ k : Fin 32, x3 (ix2 j k) * h1 (ix2 k q) + x4 (ix2 j (0 : Fin 1))) 0 := by
  rw [maximumf_apply, affine_at _ D2_rank D2_size D2_l0 D2_l1 D2_r0 D2_r1, broadcast_apply]
  exact congrArg (max _) Ideal.ofBits_zero_f32

/-- The output layer before its nonlinearity at an entry, over any second-layer activations. -/
theorem layer3 (h2 : FVec Ideal S32x4096 .f32) (x5 : FVec Ideal S2x32 .f32) (x6 : FVec Ideal S2x1 .f32) (c : Fin 2) (q : Fin 4096) :
    addf (matmul dot_S2x32_S32x4096_S2x4096_1_0_0_1_n_n none x5 h2 (constant (F := Ideal) S2x4096 .f32 0x00000000#32))
        (broadcastTo S2x4096 x6 broadcasts_S2x1_S2x4096) (ix2 c q)
      = ∑ k : Fin 32, x5 (ix2 c k) * h2 (ix2 k q) + x6 (ix2 c (0 : Fin 1)) :=
  affine_at _ D3_rank D3_size D3_l0 D3_l1 D3_r0 D3_r1 none x5 _ x6 _ c q

/-- The first class's probability row: the logistic function of the difference of the two logit rows. -/
theorem p0_eq (x0 : Vec Ideal S4x4096 .f32) (x1 : Vec Ideal S32x4 .f32) (x2 : Vec Ideal S32x1 .f32) (x3 : Vec Ideal S32x32 .f32)
    (x4 : Vec Ideal S32x1 .f32) (x5 : Vec Ideal S2x32 .f32) (x6 : Vec Ideal S2x1 .f32) (q : Fin 4096) :
    k0_pay2 (F := Ideal) x0 x1 x2 x3 x4 x5 x6 (ix2 (0 : Fin 1) q)
      = sigm (logit x0 x1 x2 x3 x4 x5 x6 0 q - logit x0 x1 x2 x3 x4 x5 x6 1 q) := by
  unfold k0_pay2
  simp only [shapeCast_self]
  show Ideal.div (Ideal.ofBits .f32 0x3F800000#32) (Ideal.ofBits .f32 0x3F800000#32 + Ideal.exp (Ideal.ofBits .f32 0x00000000#32
      - (extractStridedSlice S1x4096 ![0, 0] (addf (matmul dot_S2x32_S32x4096_S2x4096_1_0_0_1_n_n none (x5 : FVec Ideal S2x32 .f32) _ (constant (F := Ideal) S2x4096 .f32 0x00000000#32))
            (broadcastTo S2x4096 (x6 : FVec Ideal S2x1 .f32) broadcasts_S2x1_S2x4096)) slices_S2x4096_o0_0_S1x4096 (ix2 (0 : Fin 1) q)
        - extractStridedSlice S1x4096 ![1, 0] (addf (matmul dot_S2x32_S32x4096_S2x4096_1_0_0_1_n_n none (x5 : FVec Ideal S2x32 .f32) _ (constant (F := Ideal) S2x4096 .f32 0x00000000#32))
            (broadcastTo S2x4096 (x6 : FVec Ideal S2x1 .f32) broadcasts_S2x1_S2x4096)) slices_S2x4096_o1_0_S1x4096 (ix2 (0 : Fin 1) q))))
    = sigm (logit x0 x1 x2 x3 x4 x5 x6 0 q - logit x0 x1 x2 x3 x4 x5 x6 1 q)
  rw [slice2_axis0_apply 0 _ slices_S2x4096_o0_0_S1x4096 (0 : Fin 1) q (0 : Fin 2) rfl,
    slice2_axis0_apply 1 _ slices_S2x4096_o1_0_S1x4096 (0 : Fin 1) q (1 : Fin 2) rfl, layer3, layer3]
  simp only [layer2, layer1]
  unfold sigm logit hid2
  rw [Ideal.ofBits_zero_f32, ofBits_one_f32]

/-- The body's one stored value is the network's two-class softmax of the loaded blocks. -/
theorem pay_eq (x0 : Vec Ideal S4x4096 .f32) (x1 : Vec Ideal S32x4 .f32) (x2 : Vec Ideal S32x1 .f32) (x3 : Vec Ideal S32x32 .f32)
    (x4 : Vec Ideal S32x1 .f32) (x5 : Vec Ideal S2x32 .f32) (x6 : Vec Ideal S2x1 .f32) :
    k0_pay1 (F := Ideal) (k0_pay2 x0 x1 x2 x3 x4 x5 x6) = outPair (N := 4096) x0 x1 x2 x3 x4 x5 x6 := by
  funext i
  obtain ⟨c, q, rfl⟩ : ∃ (c : Fin 2) (q : Fin 4096), i = ix2 c q := ⟨i 0, i 1, eq_ix2 i⟩
  unfold k0_pay1
  rcases c with ⟨_ | _ | c, hc⟩
  · rw [concatenate_pair_apply_left (s₁ := S1x4096) (s₂ := S1x4096) (t := S2x4096) (0 : Fin 2) _ _ concatenates_S1x4096_S1x4096_S2x4096_d0
      (ix2 (⟨0, hc⟩ : Fin 2) q) rfl (ix2 (0 : Fin 1) q) (fun b => match b with | ⟨0, _⟩ => rfl | ⟨1, _⟩ => rfl), p0_eq]
    rfl
  · rw [concatenate_pair_apply_right (s₁ := S1x4096) (s₂ := S1x4096) (t := S2x4096) (0 : Fin 2) _ _ concatenates_S1x4096_S1x4096_S2x4096_d0
      (ix2 (⟨1, hc⟩ : Fin 2) q) rfl rfl (ix2 (0 : Fin 1) q)
      (fun b hb => match b, hb with | ⟨0, _⟩, hb => absurd rfl hb | ⟨1, _⟩, _ => rfl) rfl,
      subf_apply, broadcast_apply, p0_eq]
    show Ideal.ofBits .f32 0x3F800000#32 - _ = _
    rw [ofBits_one_f32]
    rfl
  · omega

end Cert.ReferenceIdeal.Payload

end
-- ==== Proof.RBlocks.lean ====
/-
  From blocks to the whole array.  Grid point t of the call computes batch columns t * 4096 … t * 4096 + 4095: its
  input block of x^T is those columns (every other operand is staged whole at every point), and it writes back those
  columns of the result.  The network's output at a batch column depends on that column of x^T only, so what point t
  writes back is block t of ONE whole-array function of the operand arrays, `outT`; the 512 blocks tile the result array,
  so after the call the result array is `outT`.
-/
import proofs.«181979_g2000006315813370_pallasbulk_300_11_alg».proof.Proof.Gen.ReferenceIdeal.Frame
import proofs.«181979_g2000006315813370_pallasbulk_300_11_alg».proof.Proof.RPayload
import Idealize.ShloMosaic.Lib.Pipeline.Value

noncomputable section

namespace Cert.ReferenceIdeal.Blocks

open Cert.ReferenceIdeal Cert.ReferenceIdeal.Gen Idealize.ShloMosaic Idealize.ShloMosaic.TcCoe Idealize.SL.Sem Idealize.ShloMosaic.ValueIdx Cert.Mlp
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps over the grid: the x^T window and the result window sit at block (0, t); every other window at
    block (0, 0). -/
theorem idx_facts : ∀ t : Fin cfg0.N,
    win0_0.index t (0 : Fin 2) = 0 ∧ win0_0.index t (1 : Fin 2) = t.val
    ∧ win0_7.index t (0 : Fin 2) = 0 ∧ win0_7.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The call's result array: the network's outputs over the whole batch, of the operand arrays as the call finds them. -/
def outT (c : Dev nD) : S2x2097152.Idx → EReal :=
  outPair (N := 2097152) (V m c main_v0) (V m c main_v1) (V m c main_v4) (V m c main_v2) (V m c main_v5) (V m c main_v3) (V m c main_v6)

/-- The x^T block at point t is batch columns t * 4096 + q of x^T. -/
theorem blk_xt (c : Dev nD) (t : Fin cfg0.N) (f : Fin 4) (q : Fin 4096) (n : Fin 2097152) (hn : n.val = t.val * 4096 + q.val) :
    (iblk m c 0 t : S4x4096.Idx → EReal) (ix2 f q) = (V m c main_v0 : S4x2097152.Idx → EReal) (ix2 f n) := by
  obtain ⟨e0, e1, -⟩ := idx_facts t
  show V m c main_v0 (((cfg0.win 0).blk t).view.emb (ix2 f q)) = V m c main_v0 (ix2 f n)
  congr 1
  funext a
  apply Fin.ext
  match a with
  | ⟨0, _⟩ => show win0_0.index t (0 : Fin 2) * 4 + 1 * f.val = f.val; omega
  | ⟨1, _⟩ => show win0_0.index t (1 : Fin 2) * 4096 + 1 * q.val = n.val; omega

/-- Window 1's block at every point is its whole array. -/
theorem blk_1 (c : Dev nD) (t : Fin cfg0.N) : (iblk m c 1 t : S32x4.Idx → EReal) = V m c main_v1 := by
  obtain ⟨-, -, -, -, e0, e1, -⟩ := idx_facts t
  funext y
  show V m c main_v1 (((cfg0.win 1).blk t).view.emb y) = V m c main_v1 y
  congr 1
  funext a
  apply Fin.ext
  match a with
  | ⟨0, _⟩ => show win0_1.index t (0 : Fin 2) * 32 + 1 * (y 0).val = (y 0).val; omega
  | ⟨1, _⟩ => show win0_1.index t (1 : Fin 2) * 4 + 1 * (y 1).val = (y 1).val; omega

/-- Window 2's block at every point is its whole array. -/
theorem blk_2 (c : Dev nD) (t : Fin cfg0.N) : (iblk m c 2 t : S32x1.Idx → EReal) = V m c main_v4 := by
  obtain ⟨-, -, -, -, -, -, e0, e1, -⟩ := idx_facts t
  funext y
  show V m c main_v4 (((cfg0.win 2).blk t).view.emb y) = V m c main_v4 y
  congr 1
  funext a
  apply Fin.ext
  match a with
  | ⟨0, _⟩ => show win0_2.index t (0 : Fin 2) * 32 + 1 * (y 0).val = (y 0).val; omega
  | ⟨1, _⟩ => show win0_2.index t (1 : Fin 2) * 1 + 1 * (y 1).val = (y 1).val; omega

/-- Window 3's block at every point is its whole array. -/
theorem blk_3 (c : Dev nD) (t : Fin cfg0.N) : (iblk m c 3 t : S32x32.Idx → EReal) = V m c main_v2 := by
  obtain ⟨-, -, -, -, -, -, -, -, e0, e1, -⟩ := idx_facts t
  funext y
  show V m c main_v2 (((cfg0.win 3).blk t).view.emb y) = V m c main_v2 y
  congr 1
  funext a
  apply Fin.ext
  match a with
  | ⟨0, _⟩ => show win0_3.index t (0 : Fin 2) * 32 + 1 * (y 0).val = (y 0).val; omega
  | ⟨1, _⟩ => show win0_3.index t (1 : Fin 2) * 32 + 1 * (y 1).val = (y 1).val; omega

/-- Window 4's block at every point is its whole array. -/
theorem blk_4 (c : Dev nD) (t : Fin cfg0.N) : (iblk m c 4 t : S32x1.Idx → EReal) = V m c main_v5 := by
  obtain ⟨-, -, -, -, -, -, -, -, -, -, e0, e1, -⟩ := idx_facts t
  funext y
  show V m c main_v5 (((cfg0.win 4).blk t).view.emb y) = V m c main_v5 y
  congr 1
  funext a
  apply Fin.ext
  match a with
  | ⟨0, _⟩ => show win0_4.index t (0 : Fin 2) * 32 + 1 * (y 0).val = (y 0).val; omega
  | ⟨1, _⟩ => show win0_4.index t (1 : Fin 2) * 1 + 1 * (y 1).val = (y 1).val; omega

/-- Window 5's block at every point is its whole array. -/
theorem blk_5 (c : Dev nD) (t : Fin cfg0.N) : (iblk m c 5 t : S2x32.Idx → EReal) = V m c main_v3 := by
  obtain ⟨-, -, -, -, -, -, -, -, -, -, -, -, e0, e1, -⟩ := idx_facts t
  funext y
  show V m c main_v3 (((cfg0.win 5).blk t).view.emb y) = V m c main_v3 y
  congr 1
  funext a
  apply Fin.ext
  match a with
  | ⟨0, _⟩ => show win0_5.index t (0 : Fin 2) * 2 + 1 * (y 0).val = (y 0).val; omega
  | ⟨1, _⟩ => show win0_5.index t (1 : Fin 2) * 32 + 1 * (y 1).val = (y 1).val; omega

/-- Window 6's block at every point is its whole array. -/
theorem blk_6 (c : Dev nD) (t : Fin cfg0.N) : (iblk m c 6 t : S2x1.Idx → EReal) = V m c main_v6 := by
  obtain ⟨-, -, -, -, -, -, -, -, -, -, -, -, -, -, e0, e1⟩ := idx_facts t
  funext y
  show V m c main_v6 (((cfg0.win 6).blk t).view.emb y) = V m c main_v6 y
  congr 1
  funext a
  apply Fin.ext
  match a with
  | ⟨0, _⟩ => show win0_6.index t (0 : Fin 2) * 2 + 1 * (y 0).val = (y 0).val; omega
  | ⟨1, _⟩ => show win0_6.index t (1 : Fin 2) * 1 + 1 * (y 1).val = (y 1).val; omega

/-- WHAT POINT t WRITES BACK is block t of `outT`. -/
theorem flushed_eq (c : Dev nD) (t : Fin cfg0.N) :
    (dats m 0 c).flushed 7 t = ((cfg0.win 7).blk t).view.read (Elt Ideal) (outT m c) := by
  show (cfg0.win 7).cut (grid0.coords t) ((dats m 0 c).after 7 t) = _
  rw [after0_7]
  unfold out0_7
  rw [View.canon_unit_zero hz]
  simp only [View.ld_unit_zero (S := S4x4096) hz, View.ld_unit_zero (S := S32x4) hz, View.ld_unit_zero (S := S32x1) hz,
    View.ld_unit_zero (S := S32x32) hz, View.ld_unit_zero (S := S2x32) hz, View.ld_unit_zero (S := S2x1) hz]
  rw [Payload.pay_eq, blk_1, blk_2, blk_3, blk_4, blk_5, blk_6]
  obtain ⟨-, -, e2, e3, -⟩ := idx_facts t
  funext y
  show outPair (iblk m c 0 t) (V m c main_v1) (V m c main_v4) (V m c main_v2) (V m c main_v5) (V m c main_v3) (V m c main_v6) y
    = outT m c (((cfg0.win 7).blk t).view.emb y)
  unfold outT
  refine outPair_block (V m c main_v0) (iblk m c 0 t) (t.val * 4096) (fun f q n hn => blk_xt m c t f q n hn) _ _ _ _ _ _ y _ ?_ ?_
  · show win0_7.index t (0 : Fin 2) * 2 + 1 * (y 0).val = (y 0).val
    omega
  · show win0_7.index t (1 : Fin 2) * 4096 + 1 * (y 1).val = t.val * 4096 + (y 1).val
    omega

/-- An index of the result array is in point t's block iff each coordinate is in the block's range on its axis. -/
theorem mem_blk (t : Fin cfg0.N) (i : S2x2097152.Idx) :
    i ∈ ((cfg0.win 7).blk t).view.set ↔ ∀ a : Fin 2, win0_7.index t a * S2x4096.size a ≤ (i a).val ∧ (i a).val < win0_7.index t a * S2x4096.size a + S2x4096.size a := by
  show i ∈ ((View.whole main_v7).slice (win0_7.rect t)).set ↔ _
  rw [View.set_slice_whole, Rect.mem_set_unit]
  exact Iff.rfl

/-- Every index of the result array is in some point's block: batch column n is in block n / 4096. -/
theorem cover (i : S2x2097152.Idx) : ∃ t : Fin cfg0.N, (cfg0.win 7).flush t = true ∧ i ∈ ((cfg0.win 7).blk t).view.set := by
  have hi0 : (i 0).val < 2 := (i 0).isLt
  have hi1 : (i 1).val < 2097152 := (i 1).isLt
  have hN : cfg0.N = 512 := N_0
  let t : Fin cfg0.N := ⟨(i 1).val / 4096, by rw [hN]; omega⟩
  have htv : t.val = (i 1).val / 4096 := rfl
  obtain ⟨-, -, e2, e3, -⟩ := idx_facts t
  refine ⟨t, flush0_7 t, ?_⟩
  rw [mem_blk]
  intro a
  match a with
  | ⟨0, _⟩ => show win0_7.index t (0 : Fin 2) * 2 ≤ (i 0).val ∧ (i 0).val < win0_7.index t (0 : Fin 2) * 2 + 2; omega
  | ⟨1, _⟩ => show win0_7.index t (1 : Fin 2) * 4096 ≤ (i 1).val ∧ (i 1).val < win0_7.index t (1 : Fin 2) * 4096 + 4096; omega

/-- THE RESULT ARRAY after the call is `outT`. -/
theorem final (c : Dev nD) : (dats m 0 c).arrAt 7 cfg0.N = outT m c :=
  (dats m 0 c).arrAt_eq_of_cover 7 (outT m c) (fun t _ => flushed_eq m c t) cover

end Cert.ReferenceIdeal.Blocks

end
-- ==== Proof.RRun.lean ====
/-
  The whole program's result.  After the call the one remaining host line transposes the call's result array
  [2, batch] back to [batch, 2]; the call's result array is `outT` (the blocks tile it), so the program's result is the
  transpose of `outT`, and the argument arrays end as they were.
-/
import proofs.«181979_g2000006315813370_pallasbulk_300_11_alg».proof.Proof.Gen.ReferenceIdeal.Frame
import proofs.«181979_g2000006315813370_pallasbulk_300_11_alg».proof.Proof.RBlocks
import Idealize.ShloMosaic.Lib.StableHlo.Run
import Idealize.ShloMosaic.Lib.Pipeline.Value

noncomputable section

namespace Cert.ReferenceIdeal.RunValue

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The program's result after the last host line: the call's result array, transposed. -/
theorem result_eq (c : Dev nD) :
    Pipeline.afterTail₀ cfgs (dats m) 0 (V0 m) [hostOps1] c main_v8
      = transpose S2097152x2 [1, 0] (Blocks.outT m c) transposes_S2x2097152_S2097152x2_1_0 := by
  unfold Pipeline.afterTail₀
  show StableHlo.after hostOps1 _ (Proc.devRef .tc main_v8) = _
  after_results
  exact congrArg (fun a => transpose S2097152x2 [1, 0] a transposes_S2x2097152_S2097152x2_1_0)
    ((Pipeline.withArrays_arr spec0 launch0.win.arr_inj c _ _ 7).trans (Blocks.final m c))

/-- The run, read: every weakly fair execution ends with the result at the transpose of `outT` and the arguments unchanged. -/
theorem run : θ_run defs (onTc (τ := τ) (main (F := Ideal))) ⟨m, fun _ => 0, ρ⟩ fun r => ∀ c : Dev nD,
      r.2.mem ((c.tc : Thread nD τ).loc main_v8) = transpose S2097152x2 [1, 0] (Blocks.outT m c) transposes_S2x2097152_S2097152x2_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.ReferenceIdeal.RunValue

end
-- ==== Proof.lean ====
/-
  The certificate of a three-layer network (4 -> 32 -> 32 -> 2, rectifiers between the layers) followed by a two-class
  softmax, computed for 2097152 batch rows by a kernel and by its reference, both of which work on the transposed layout
  (features down the rows, the batch along the columns) and tile the batch columns over a grid (8192 columns a block in
  the kernel, 4096 in the reference).

  The reference forms the two logits l0, l1, their difference d = l0 - l1, p0 = 1 / (1 + exp (-d)) and p1 = 1 - p0.
  The kernel folds the softmax into the output layer: it multiplies by the weight rows (w3[:,0] - w3[:,1],
  w3[:,1] - w3[:,0]) and adds the biases (b3[0] - b3[1], b3[1] - b3[0]), so that its two "logits" are d and -d, and ends
  with the logistic function of each.  At the ideal instance the two agree on finite inputs: a difference of weight rows
  moves across the contraction (distributivity, which needs real entries), and 1 - 1 / (1 + exp (-d)) = 1 / (1 + exp d).

  The modules: MlpSpec (the network as one function of the transposed operand arrays, and that a block of batch columns of
  its result is the same function of that block of columns of x^T), MlpAlgebra (the law above), MlpLayer (a dense layer
  read at an entry), K/RPayload (each kernel body's stored value is the network's function of its loaded blocks),
  K/RBlocks (the blocks tile the call's result array), K/RHost (the operand arrays as functions of the arguments),
  K/RRun (the last host line: a transpose), Finite (the precondition read back: every entry is a real number).
  Here: the two programs' result arrays are one function of the arguments, and the five claims.
-/
import proofs.«181979_g2000006315813370_pallasbulk_300_11_alg».proof.Defs
import proofs.«181979_g2000006315813370_pallasbulk_300_11_alg».proof.Proof.Gen.Kernel
import proofs.«181979_g2000006315813370_pallasbulk_300_11_alg».proof.Proof.Gen.Kernel.Skeleton
import proofs.«181979_g2000006315813370_pallasbulk_300_11_alg».proof.Proof.Gen.Kernel.Launch
import proofs.«181979_g2000006315813370_pallasbulk_300_11_alg».proof.Proof.Gen.Kernel.Points
import proofs.«181979_g2000006315813370_pallasbulk_300_11_alg».proof.Proof.Gen.Kernel.Frame
import proofs.«181979_g2000006315813370_pallasbulk_300_11_alg».proof.Proof.Gen.KernelIdeal
import proofs.«181979_g2000006315813370_pallasbulk_300_11_alg».proof.Proof.Gen.KernelIdeal.Skeleton
import proofs.«181979_g2000006315813370_pallasbulk_300_11_alg».proof.Proof.Gen.KernelIdeal.Launch
import proofs.«181979_g2000006315813370_pallasbulk_300_11_alg».proof.Proof.Gen.KernelIdeal.Points
import proofs.«181979_g2000006315813370_pallasbulk_300_11_alg».proof.Proof.Gen.KernelIdeal.Frame
import proofs.«181979_g2000006315813370_pallasbulk_300_11_alg».proof.Proof.Gen.ReferenceIdeal
import proofs.«181979_g2000006315813370_pallasbulk_300_11_alg».proof.Proof.Gen.ReferenceIdeal.Skeleton
import proofs.«181979_g2000006315813370_pallasbulk_300_11_alg».proof.Proof.Gen.ReferenceIdeal.Launch
import proofs.«181979_g2000006315813370_pallasbulk_300_11_alg».proof.Proof.Gen.ReferenceIdeal.Points
import proofs.«181979_g2000006315813370_pallasbulk_300_11_alg».proof.Proof.Gen.ReferenceIdeal.Frame
import proofs.«181979_g2000006315813370_pallasbulk_300_11_alg».proof.Proof.Gen.Pre_finite_inputs
import proofs.«181979_g2000006315813370_pallasbulk_300_11_alg».proof.Proof.MlpAlgebra
import proofs.«181979_g2000006315813370_pallasbulk_300_11_alg».proof.Proof.Finite
import proofs.«181979_g2000006315813370_pallasbulk_300_11_alg».proof.Proof.KHost
import proofs.«181979_g2000006315813370_pallasbulk_300_11_alg».proof.Proof.KRun
import proofs.«181979_g2000006315813370_pallasbulk_300_11_alg».proof.Proof.RHost
import proofs.«181979_g2000006315813370_pallasbulk_300_11_alg».proof.Proof.RRun
import Idealize.ShloMosaic.Adequacy
import Idealize.ShloMosaic.Init

noncomputable section

namespace Cert.Proof

open Idealize.ShloMosaic Idealize.ShloMosaic.TcCoe Idealize.SL.Sem Idealize.ShloMosaic.ValueIdx Cert.Mlp

/-! ## The two call results are one function of the arguments -/

/-- On real arguments, the kernel's call result (the logistic function of the difference logits) is the reference's (the
    two-class softmax of the plain logits), as functions of the seven argument arrays. -/
theorem calls_agree (A0 : Cert.KernelIdeal.S2097152x4.Idx → EReal) (A1 : Cert.KernelIdeal.S4x32.Idx → EReal)
    (A2 : Cert.KernelIdeal.S1x32.Idx → EReal) (A3 : Cert.KernelIdeal.S32x32.Idx → EReal) (A4 : Cert.KernelIdeal.S1x32.Idx → EReal)
    (A5 : Cert.KernelIdeal.S32x2.Idx → EReal) (A6 : Cert.KernelIdeal.S1x2.Idx → EReal)
    (h0 : ∀ i, ∃ r : ℝ, A0 i = r) (h1 : ∀ i, ∃ r : ℝ, A1 i = r) (h2 : ∀ i, ∃ r : ℝ, A2 i = r) (h3 : ∀ i, ∃ r : ℝ, A3 i = r)
    (h4 : ∀ i, ∃ r : ℝ, A4 i = r) (h5 : ∀ i, ∃ r : ℝ, A5 i = r) (h6 : ∀ i, ∃ r : ℝ, A6 i = r) :
    outPair (N := 2097152)
        (transpose Cert.ReferenceIdeal.S4x2097152 [1, 0] A0 Cert.ReferenceIdeal.Facts₀.transposes_S2097152x4_S4x2097152_1_0)
        (transpose Cert.ReferenceIdeal.S32x4 [1, 0] A1 Cert.ReferenceIdeal.Facts₀.transposes_S4x32_S32x4_1_0)
        (shapeCast Cert.ReferenceIdeal.S32x1 A2 Cert.ReferenceIdeal.Facts₀.shapeCasts_S1x32_S32x1)
        (transpose Cert.ReferenceIdeal.S32x32 [1, 0] A3 Cert.ReferenceIdeal.Facts₀.transposes_S32x32_S32x32_1_0)
        (shapeCast Cert.ReferenceIdeal.S32x1 A4 Cert.ReferenceIdeal.Facts₀.shapeCasts_S1x32_S32x1)
        (transpose Cert.ReferenceIdeal.S2x32 [1, 0] A5 Cert.ReferenceIdeal.Facts₀.transposes_S32x2_S2x32_1_0)
        (shapeCast Cert.ReferenceIdeal.S2x1 A6 Cert.ReferenceIdeal.Facts₀.shapeCasts_S1x2_S2x1)
      = outSig (N := 2097152)
        (transpose Cert.KernelIdeal.S4x2097152 [1, 0] A0 Cert.KernelIdeal.Facts₀.transposes_S2097152x4_S4x2097152_1_0)
        (transpose Cert.KernelIdeal.S32x4 [1, 0] A1 Cert.KernelIdeal.Facts₀.transposes_S4x32_S32x4_1_0)
        (shapeCast Cert.KernelIdeal.S32x1 A2 Cert.KernelIdeal.Facts₀.shapeCasts_S1x32_S32x1)
        (transpose Cert.KernelIdeal.S32x32 [1, 0] A3 Cert.KernelIdeal.Facts₀.transposes_S32x32_S32x32_1_0)
        (shapeCast Cert.KernelIdeal.S32x1 A4 Cert.KernelIdeal.Facts₀.shapeCasts_S1x32_S32x1)
        (Cert.KernelIdeal.HostValue.w3diff A5) (Cert.KernelIdeal.HostValue.b3diff A6) := by
  refine (outSig_diff_eq_outPair
    (transpose Cert.KernelIdeal.S4x2097152 [1, 0] A0 Cert.KernelIdeal.Facts₀.transposes_S2097152x4_S4x2097152_1_0)
    (transpose Cert.KernelIdeal.S32x4 [1, 0] A1 Cert.KernelIdeal.Facts₀.transposes_S4x32_S32x4_1_0)
    (shapeCast Cert.KernelIdeal.S32x1 A2 Cert.KernelIdeal.Facts₀.shapeCasts_S1x32_S32x1)
    (transpose Cert.KernelIdeal.S32x32 [1, 0] A3 Cert.KernelIdeal.Facts₀.transposes_S32x32_S32x32_1_0)
    (shapeCast Cert.KernelIdeal.S32x1 A4 Cert.KernelIdeal.Facts₀.shapeCasts_S1x32_S32x1)
    (transpose Cert.ReferenceIdeal.S2x32 [1, 0] A5 Cert.ReferenceIdeal.Facts₀.transposes_S32x2_S2x32_1_0)
    (shapeCast Cert.ReferenceIdeal.S2x1 A6 Cert.ReferenceIdeal.Facts₀.shapeCasts_S1x2_S2x1)
    (Cert.KernelIdeal.HostValue.w3diff A5) (Cert.KernelIdeal.HostValue.b3diff A6) (fun _ => h0 _) (fun _ => h1 _) (fun _ => h2 _) (fun _ => h3 _) (fun _ => h4 _)
    (fun _ => h5 _) (fun _ => h6 _) (fun k => ?_) (fun k => ?_) ?_ ?_).symm
  · rw [Cert.KernelIdeal.HostValue.w3diff_apply0, transpose_ix2_apply, transpose_ix2_apply]
  · rw [Cert.KernelIdeal.HostValue.w3diff_apply1, transpose_ix2_apply, transpose_ix2_apply]
  · rw [Cert.KernelIdeal.HostValue.b3diff_apply0, Cert.ReferenceIdeal.HostValue.b3col_apply, Cert.ReferenceIdeal.HostValue.b3col_apply]
  · rw [Cert.KernelIdeal.HostValue.b3diff_apply1, Cert.ReferenceIdeal.HostValue.b3col_apply, Cert.ReferenceIdeal.HostValue.b3col_apply]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote nothing. -/
theorem preserves : Cert.preserves_Kernel_KernelIdeal := trivial

/-- Both idealized programs end with their result at the transpose of their call's result array; on agreeing, finite
    arguments the two call results are one function (`calls_agree`). -/
theorem algebraic : Cert.algebraic_KernelIdeal_ReferenceIdeal := by
  intro m ρ m' ρ' hpre hagree
  refine ⟨fun c => transpose Cert.KernelIdeal.S2097152x2 [1, 0] (Cert.KernelIdeal.Blocks.outT m c)
    Cert.KernelIdeal.Facts₀.transposes_S2x2097152_S2097152x2_1_0, Cert.KernelIdeal.RunValue.run m ρ, ?_⟩
  refine (θ_run Cert.ReferenceIdeal.defs _ _).mono (fun _ h c => ⟨(h c).1.trans ?_, (h c).2⟩)
    (Cert.ReferenceIdeal.RunValue.run m' ρ')
  obtain ⟨h0, h1, h2, h3, h4, h5, h6⟩ := Cert.Finite.real_of_pre _ _ _ _ _ _ _ (hpre c)
  obtain ⟨g0, g1, g2, g3, g4, g5, g6⟩ := hagree c
  refine congrArg (fun a => transpose Cert.KernelIdeal.S2097152x2 [1, 0] a Cert.KernelIdeal.Facts₀.transposes_S2x2097152_S2097152x2_1_0) ?_
  unfold Cert.ReferenceIdeal.Blocks.outT Cert.KernelIdeal.Blocks.outT
  rw [Cert.ReferenceIdeal.HostValue.V_xt, Cert.ReferenceIdeal.HostValue.V_w1t, Cert.ReferenceIdeal.HostValue.V_b1t,
    Cert.ReferenceIdeal.HostValue.V_w2t, Cert.ReferenceIdeal.HostValue.V_b2t, Cert.ReferenceIdeal.HostValue.V_w3t,
    Cert.ReferenceIdeal.HostValue.V_b3t, Cert.KernelIdeal.HostValue.V_xt, Cert.KernelIdeal.HostValue.V_w1t,
    Cert.KernelIdeal.HostValue.V_b1t, Cert.KernelIdeal.HostValue.V_w2t, Cert.KernelIdeal.HostValue.V_b2t,
    Cert.KernelIdeal.HostValue.V_w3d, Cert.KernelIdeal.HostValue.V_b3d, g0, g1, g2, g3, g4, g5, g6]
  exact calls_agree _ _ _ _ _ _ _ h0 h1 h2 h3 h4 h5 h6

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
